-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S1 .f32) (main_arg13 : FVec F S64x32 .f32) (main_arg14 : FVec F S32 .f32) (main_arg15 : FVec F S32x1 .f32) (main_arg16 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_arg13 : FVec F S64x32 .f32) (main_arg14 : FVec F S32 .f32) (main_arg15 : FVec F S32x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩
abbrev S10000x32 : Shape := ⟨2, ![10000, 32]⟩

abbrev nBuf : Space → Nat
  | .hbm => 132
  | .vmem => 44
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S64x32, .f32⟩
  | 14 => ⟨S32, .f32⟩
  | 15 => ⟨S32x1, .f32⟩
  | 16 => ⟨S1, .f32⟩
  | 17 => ⟨S1x1600000, .i32⟩
  | 18 => ⟨S1600000, .i32⟩
  | 19 => ⟨S100000, .i32⟩
  | 20 => ⟨S1700000, .i32⟩
  | 21 => ⟨S1x1600000, .i32⟩
  | 22 => ⟨S1600000, .i32⟩
  | 23 => ⟨S100000, .i32⟩
  | 24 => ⟨S1700000, .i32⟩
  | 25 => ⟨S_, .f32⟩
  | 26 => ⟨S100000, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S1700000x1, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x64, .f32⟩
  | 99 => ⟨S1700000x1, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x64, .f32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S1x64, .f32⟩
  | 116 => ⟨S100000x64, .f32⟩
  | 117 => ⟨S1x32, .f32⟩
  | 118 => ⟨S1x32, .f32⟩
  | 119 => ⟨S1x1, .f32⟩
  | 120 => ⟨S1x1, .f32⟩
  | 121 => ⟨S100000x1, .f32⟩
  | 122 => ⟨S100000x1, .f32⟩
  | 123 => ⟨S100000, .f32⟩
  | 124 => ⟨S100000, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x32, .f32⟩
  | .local _ .vmem, ⟨33, _⟩ => ⟨S1x32, .f32⟩
  | .local _ .vmem, ⟨34, _⟩ => ⟨S32x1, .f32⟩
  | .local _ .vmem, ⟨35, _⟩ => ⟨S1x1, .f32⟩
  | .local _ .vmem, ⟨36, _⟩ => ⟨S64x32, .f32⟩
  | .local _ .vmem, ⟨37, _⟩ => ⟨S1x32, .f32⟩
  | .local _ .vmem, ⟨38, _⟩ => ⟨S32x1, .f32⟩
  | .local _ .vmem, ⟨39, _⟩ => ⟨S1x1, .f32⟩
  | .local _ .vmem, ⟨40, _⟩ => ⟨S10000x1, .f32⟩
  | .local _ .vmem, ⟨41, _⟩ => ⟨S10000x1, .f32⟩
  | .local _ .vmem, ⟨42, _⟩ => ⟨S10000x1, .f32⟩
  | .local _ .vmem, ⟨43, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85_0 : Ref sig .tc := ⟨.hbm, 121, rfl⟩
abbrev main_v85_1 : Ref sig .tc := ⟨.hbm, 122, rfl⟩
abbrev main_v86 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg4_0 : Ref sig .tc := ⟨.vmem, 35, rfl⟩
abbrev cc6_stg5_0 : Ref sig .tc := ⟨.vmem, 36, rfl⟩
abbrev cc6_stg6_0 : Ref sig .tc := ⟨.vmem, 37, rfl⟩
abbrev cc6_stg7_0 : Ref sig .tc := ⟨.vmem, 38, rfl⟩
abbrev cc6_stg8_0 : Ref sig .tc := ⟨.vmem, 39, rfl⟩
abbrev cc6_stg9_0 : Ref sig .tc := ⟨.vmem, 40, rfl⟩
abbrev cc6_stg9_1 : Ref sig .tc := ⟨.vmem, 41, rfl⟩
abbrev cc6_stg10_0 : Ref sig .tc := ⟨.vmem, 42, rfl⟩
abbrev cc6_stg10_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem4_0 : DmaSem sig := 35
abbrev cc6_sem5_0 : DmaSem sig := 36
abbrev cc6_sem6_0 : DmaSem sig := 37
abbrev cc6_sem7_0 : DmaSem sig := 38
abbrev cc6_sem8_0 : DmaSem sig := 39
abbrev cc6_sem9_0 : DmaSem sig := 40
abbrev cc6_sem9_1 : DmaSem sig := 41
abbrev cc6_sem10_0 : DmaSem sig := 42
abbrev cc6_sem10_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S10000x1 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S10000x1 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  reducesTo_S100000_S_d0 : S100000.ReducesTo [0] S_
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x32.size a ≤ S64x32.size a
  hwx6_5 : ∀ i : grid6.Coords, EltTy.bits .f32 = 32 ∨ (Rect.block (s := S64x32) S64x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x1.size a ≤ S32x1.size a
  hwx6_7 : ∀ i : grid6.Coords, EltTy.bits .f32 = 32 ∨ (Rect.block (s := S32x1) S32x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S10000x1.size a ≤ S100000x1.size a
  hwx6_9 : ∀ i : grid6.Coords, EltTy.bits .f32 = 32 ∨ (Rect.block (s := S100000x1) S10000x1.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S10000x1.size a ≤ S100000x1.size a
  hwx6_10 : ∀ i : grid6.Coords, EltTy.bits .f32 = 32 ∨ (Rect.block (s := S100000x1) S10000x1.size (cc6_transform_10 i) (hinb6_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S64x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v82) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg15) S32x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v84) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v85_0) S10000x1.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v85_1) S10000x1.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S64x32, .f32⟩
  | 14 => ⟨S32, .f32⟩
  | 15 => ⟨S32x1, .f32⟩
  | 16 => ⟨S1, .f32⟩
  | 17 => ⟨S1x1600000, .i32⟩
  | 18 => ⟨S1600000, .i32⟩
  | 19 => ⟨S100000, .i32⟩
  | 20 => ⟨S1700000, .i32⟩
  | 21 => ⟨S1x1600000, .i32⟩
  | 22 => ⟨S1600000, .i32⟩
  | 23 => ⟨S100000, .i32⟩
  | 24 => ⟨S1700000, .i32⟩
  | 25 => ⟨S_, .f32⟩
  | 26 => ⟨S100000, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S1700000x1, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x128, .f32⟩
  | 95 => ⟨S1700000x128, .f32⟩
  | 96 => ⟨S_, .f32⟩
  | 97 => ⟨S100000x128, .f32⟩
  | 98 => ⟨S1700000x1, .i32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x64, .f32⟩
  | 107 => ⟨S1700000x1, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S100000x1, .f32⟩
  | 9 => ⟨S1x1, .f32⟩
  | 10 => ⟨S100000x1, .f32⟩
  | 11 => ⟨S100000x1, .f32⟩
  | 12 => ⟨S100000, .f32⟩
  | 13 => ⟨S100000x32, .f32⟩
  | 14 => ⟨S1x32, .f32⟩
  | 15 => ⟨S100000x32, .f32⟩
  | 16 => ⟨S100000x32, .f32⟩
  | 17 => ⟨S_, .f32⟩
  | 18 => ⟨S100000x32, .f32⟩
  | 19 => ⟨S100000x32, .f32⟩
  | 20 => ⟨S100000x1, .f32⟩
  | 21 => ⟨S1x1, .f32⟩
  | 22 => ⟨S100000x1, .f32⟩
  | 23 => ⟨S100000x1, .f32⟩
  | 24 => ⟨S100000, .f32⟩
  | 25 => ⟨S_, .f32⟩
  | 26 => ⟨S_, .f32⟩
  | 27 => ⟨S_, .f32⟩
  | 28 => ⟨S_, .f32⟩
  | 29 => ⟨S100000, .f32⟩
  | 30 => ⟨S100000, .f32⟩
  | 31 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_9 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call2_cst : Ref sig .tc := ⟨.hbm, 103, rfl⟩
abbrev main_call2_v0 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_12 : Ref sig .tc := ⟨.hbm, 108, rfl⟩
abbrev main_v71 : Ref sig .tc := ⟨.hbm, 109, rfl⟩
abbrev main_v72 : Ref sig .tc := ⟨.hbm, 110, rfl⟩
abbrev main_c_13 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_call3_cst : Ref sig .tc := ⟨.hbm, 126, rfl⟩
abbrev main_call3_v0 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call4_cst : Ref sig .tc := ⟨.hbm, 133, rfl⟩
abbrev main_call4_v0 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call5_cst : Ref sig .tc := ⟨.hbm, 145, rfl⟩
abbrev main_call5_v0 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_15 : Ref sig .tc := ⟨.hbm, 153, rfl⟩
abbrev main_v107 : Ref sig .tc := ⟨.hbm, 154, rfl⟩
abbrev main_cst_16 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  reducesTo_S100000_S_d0 : S100000.ReducesTo [0] S_
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's whole run, with the result named.  @main is fifteen segments: host stretches and seven
  pallas_call regions.  Every weakly fair execution terminates without a fault; at the end each argument array is as
  launched, and the result buffer holds what the fold of the segments leaves there: the last boundary's contents read
  at the result's reference.  The launch over the segments is the one that gives the frame; only the last step differs,
  which reads one more buffer off the final thread state.
-/
import proofs.«172456_j42700564856884_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the seventeen argument arrays end as launched. -/
theorem run_result : θ_run defs (onTc (τ := τ) (main (F := F))) ⟨m, fun _ => 0, ρ⟩ (fun r => ∀ c : Dev nD,
      r.2.mem ((c.tc : Thread nD τ).loc main_v92) = W15 m ρ c (Proc.devRef .tc main_v92)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v92 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c)⟩)

end Cert.KernelIdeal.Run

end
-- ==== Proof.MatmulBlocks.lean ====
/-
  The three matrix-product regions.  Each pallas_call multiplies a [100000, 128] array, ten row blocks of 10000 rows,
  by a whole weight matrix: grid point t loads rows 10000·t … 10000·t + 9999 and the weights, and stores the block of
  products.  On extended reals the entry (r, q) of the stored block is the plain sum over k of x(r, k) · w(k, q) — the
  same sum the host's dot_general of the two whole arrays has at that entry — and the ten blocks tile the output, so the
  output array after the region IS the host's dot_general of the two arrays the region found.
-/
import proofs.«172456_j42700564856884_1_alg».proof.Proof.Gen.KernelIdeal.Frame
import proofs.«172456_j42700564856884_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Matmul

open Cert.KernelIdeal Cert.KernelIdeal.Gen
open Idealize.ShloMosaic Idealize.ShloMosaic.TcCoe Idealize.SL.Sem
open Idealize.ShloMosaic.Pipeline (Dat Cfg Window)
open ValueIdx

theorem hz : (![0, 0] : Fin 2 → Nat) = fun _ => 0 := funext fun a => by fin_cases a <;> rfl

/-- The host's product of a [100000, 128] array with a [128, 128] matrix. -/
def mm128 (x : (⟨Cert.ReferenceIdeal.S100000x128, .f32⟩ : BufTy).Contents (Elt Ideal)) (w : (⟨Cert.ReferenceIdeal.S128x128, .f32⟩ : BufTy).Contents (Elt Ideal)) :
    (⟨Cert.ReferenceIdeal.S100000x128, .f32⟩ : BufTy).Contents (Elt Ideal) :=
  Cert.ReferenceIdeal.Read.val_main_v33 (F := Ideal) x w

theorem mm128_apply (x : (⟨Cert.ReferenceIdeal.S100000x128, .f32⟩ : BufTy).Contents (Elt Ideal)) (w : (⟨Cert.ReferenceIdeal.S128x128, .f32⟩ : BufTy).Contents (Elt Ideal))
    (i : Cert.ReferenceIdeal.S100000x128.Idx) :
    mm128 x w i = ∑ k : Fin 128, x (Cert.ReferenceIdeal.Read.lidx_main_v33 i k) * w (Cert.ReferenceIdeal.Read.ridx_main_v33 i k) :=
  Cert.ReferenceIdeal.Read.val_main_v33_apply x w i

/-- The host's product of a [100000, 128] array with a [128, 64] matrix. -/
def mm64 (x : (⟨Cert.ReferenceIdeal.S100000x128, .f32⟩ : BufTy).Contents (Elt Ideal)) (w : (⟨Cert.ReferenceIdeal.S128x64, .f32⟩ : BufTy).Contents (Elt Ideal)) : (⟨Cert.ReferenceIdeal.S100000x64, .f32⟩ : BufTy).Contents (Elt Ideal) :=
  Host.dotGeneral (F := Ideal) (φ₁ := .f32) (φ₂ := .f32) Cert.ReferenceIdeal.dot_S100000x128_S128x64_S100000x64_1_0_0_1_n_n none x w

/-- Its entry (r, q) is the sum over the 128 contracted positions k of x(r, k) · w(k, q). -/
theorem mm64_apply (x : (⟨Cert.ReferenceIdeal.S100000x128, .f32⟩ : BufTy).Contents (Elt Ideal)) (w : (⟨Cert.ReferenceIdeal.S128x64, .f32⟩ : BufTy).Contents (Elt Ideal)) (i : Cert.ReferenceIdeal.S100000x64.Idx) :
    mm64 x w i = ∑ k : Fin 128, x (Cert.ReferenceIdeal.Read.lidx_main_v69 i k) * w (Cert.ReferenceIdeal.Read.ridx_main_v69 i k) := by
  unfold mm64
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.Read.lidx_main_v69 i k := funext fun a => Fin.ext (by
    match a with
    | ⟨0, _⟩ => exact Cert.ReferenceIdeal.Read.lhs_main_v69_0 _ _
    | ⟨1, _⟩ => exact (Cert.ReferenceIdeal.Read.lhs_main_v69_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.Read.ridx_main_v69 i k := funext fun a => Fin.ext (by
    match a with
    | ⟨0, _⟩ => exact (Cert.ReferenceIdeal.Read.rhs_main_v69_0 _ _).trans hk
    | ⟨1, _⟩ => exact Cert.ReferenceIdeal.Read.rhs_main_v69_1 _ _)
  rw [el, er]

variable (V : (c : Dev nD) → (b : Ref sig .tc) → Buf (Elt Ideal) ((c : Thread nD τ).loc b))

/-! ## Region 0: a block of 10000 rows times the whole weight matrix -/

/-! The operand indices of the block product, axis by axis. -/
theorem lhs0_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs0_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs0_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs0_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's one value at an entry: row `p` of the row block against column `q` of the weights, summed over the
    128 contracted positions (the roundings to the narrower float format are the identity on extended reals, and
    the accumulator starts at zero). -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-- Where the windows sit at grid point `t`: the row block and the output block are the `t`-th of their arrays, the
    weights are the whole matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays as the region finds them. -/
theorem flushed0_eq (c : Dev nD) (t : Fin cfg0.N) :
    (dat0 (F := Ideal) V c).flushed 2 t
      = ((cfg0.win 2).blk t).view.read (Elt Ideal) (mm128 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = mm128 (V c (Pipeline.arrRef spec0 0)) (V c (Pipeline.arrRef spec0 1)) (((cfg0.win 2).blk t).view.emb (ix2 p q))
  rw [pay0_apply, mm128_apply]
  refine Finset.sum_congr rfl fun k _ => ?_
  have hx : iblk0 V c 0 t (ix2 p k)
      = V c (Pipeline.arrRef spec0 0) (Cert.ReferenceIdeal.Read.lidx_main_v33 (((cfg0.win 2).blk t).view.emb (ix2 p q)) k) := by
    show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hw : iblk0 V c 1 t (ix2 k q)
      = V c (Pipeline.arrRef spec0 1) (Cert.ReferenceIdeal.Read.ridx_main_v33 (((cfg0.win 2).blk t).view.emb (ix2 p q)) k) := by
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the output array lies in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Every row of the output lies in the block of the point numbered by its row divided by 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 10000, by rw [show cfg0.N = 10 from N_0]; omega⟩, flush0_2 _, ?_⟩
  rw [mem_blk0]
  obtain ⟨e0, e1, e2, e3, e4, e5⟩ := idx_facts0 ⟨(i 0).val / 10000, by rw [show cfg0.N = 10 from N_0]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- The output array after the region: the product of the two arrays the region found. -/
theorem arr0 (c : Dev nD) :
    (dat0 (F := Ideal) V c).arrAt 2 cfg0.N = mm128 (V c (Pipeline.arrRef spec0 0)) (V c (Pipeline.arrRef spec0 1)) :=
  (dat0 (F := Ideal) V c).arrAt_eq_of_cover 2 _ (fun t _ => flushed0_eq V c t) cover0

/-! ## Region 2: a block of 10000 rows times the whole weight matrix -/

/-! The operand indices of the block product, axis by axis. -/
theorem lhs2_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs2_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs2_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs2_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's one value at an entry: row `p` of the row block against column `q` of the weights, summed over the
    128 contracted positions (the roundings to the narrower float format are the identity on extended reals, and
    the accumulator starts at zero). -/
theorem pay2_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er, shapeCast_self]
  rfl

/-- Where the windows sit at grid point `t`: the row block and the output block are the `t`-th of their arrays, the
    weights are the whole matrix at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the product of the two arrays as the region finds them. -/
theorem flushed2_eq (c : Dev nD) (t : Fin cfg2.N) :
    (dat2 (F := Ideal) V c).flushed 2 t
      = ((cfg2.win 2).blk t).view.read (Elt Ideal) (mm128 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts2 t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (ix2 p q)
    = mm128 (V c (Pipeline.arrRef spec2 0)) (V c (Pipeline.arrRef spec2 1)) (((cfg2.win 2).blk t).view.emb (ix2 p q))
  rw [pay2_apply, mm128_apply]
  refine Finset.sum_congr rfl fun k _ => ?_
  have hx : iblk2 V c 0 t (ix2 p k)
      = V c (Pipeline.arrRef spec2 0) (Cert.ReferenceIdeal.Read.lidx_main_v33 (((cfg2.win 2).blk t).view.emb (ix2 p q)) k) := by
    show V c (Pipeline.arrRef spec2 0) (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have hw : iblk2 V c 1 t (ix2 k q)
      = V c (Pipeline.arrRef spec2 1) (Cert.ReferenceIdeal.Read.ridx_main_v33 (((cfg2.win 2).blk t).view.emb (ix2 p q)) k) := by
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- An index of the output array lies in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v49).slice (win2_2.rect t)).set ↔ _
  rw [View.set_slice_whole, Rect.mem_set_unit]
  exact Iff.rfl

/-- Every row of the output lies in the block of the point numbered by its row divided by 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 10000, by rw [show cfg2.N = 10 from N_2]; omega⟩, flush2_2 _, ?_⟩
  rw [mem_blk2]
  obtain ⟨e0, e1, e2, e3, e4, e5⟩ := idx_facts2 ⟨(i 0).val / 10000, by rw [show cfg2.N = 10 from N_2]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 128 ≤ (i 1).val ∧ (i 1).val < win2_2.index _ (1 : Fin 2) * 128 + 128; rw [e5]; omega

/-- The output array after the region: the product of the two arrays the region found. -/
theorem arr2 (c : Dev nD) :
    (dat2 (F := Ideal) V c).arrAt 2 cfg2.N = mm128 (V c (Pipeline.arrRef spec2 0)) (V c (Pipeline.arrRef spec2 1)) :=
  (dat2 (F := Ideal) V c).arrAt_eq_of_cover 2 _ (fun t _ => flushed2_eq V c t) cover2

/-! ## Region 4: a block of 10000 rows times the whole weight matrix -/

/-! The operand indices of the block product, axis by axis. -/
theorem lhs4_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs4_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs4_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs4_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's one value at an entry: row `p` of the row block against column `q` of the weights, summed over the
    128 contracted positions (the roundings to the narrower float format are the identity on extended reals, and
    the accumulator starts at zero). -/
theorem pay4_apply (x0 : Vec Ideal S10000x128 .f32) (x1 : Vec Ideal S128x64 .f32) (p : Fin 10000) (q : Fin 64) :
    k4_pay1 (F := Ideal) x0 x1 (ix2 p q) = ∑ k : Fin 128, x0 (ix2 p k) * x1 (ix2 k q) := by
  unfold k4_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs4_0 _ _
    | ⟨1, _⟩ => exact (lhs4_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs4_0 _ _).trans hk
    | ⟨1, _⟩ => exact rhs4_1 _ _)
  rw [el, er, shapeCast_self]
  rfl

/-- Where the windows sit at grid point `t`: the row block and the output block are the `t`-th of their arrays, the
    weights are the whole matrix at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the product of the two arrays as the region finds them. -/
theorem flushed4_eq (c : Dev nD) (t : Fin cfg4.N) :
    (dat4 (F := Ideal) V c).flushed 2 t
      = ((cfg4.win 2).blk t).view.read (Elt Ideal) (mm64 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz]
  simp only [View.ld_unit_zero (S := S10000x128) hz, View.ld_unit_zero (S := S128x64) hz]
  obtain ⟨e0, e1, e2, e3, e4, e5⟩ := idx_facts4 t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = mm64 (V c (Pipeline.arrRef spec4 0)) (V c (Pipeline.arrRef spec4 1)) (((cfg4.win 2).blk t).view.emb (ix2 p q))
  rw [pay4_apply, mm64_apply]
  refine Finset.sum_congr rfl fun k _ => ?_
  have hx : iblk4 V c 0 t (ix2 p k)
      = V c (Pipeline.arrRef spec4 0) (Cert.ReferenceIdeal.Read.lidx_main_v69 (((cfg4.win 2).blk t).view.emb (ix2 p q)) k) := by
    show V c (Pipeline.arrRef spec4 0) (((cfg4.win 0).blk t).view.emb (ix2 p k)) = _
    refine congrArg _ (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  have hw : iblk4 V c 1 t (ix2 k q)
      = V c (Pipeline.arrRef spec4 1) (Cert.ReferenceIdeal.Read.ridx_main_v69 (((cfg4.win 2).blk t).view.emb (ix2 p q)) k) := by
    show V c (Pipeline.arrRef spec4 1) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = win4_2.index t (1 : Fin 2) * 64 + 1 * q.val; omega
  rw [hx, hw]

/-- An index of the output array lies in point `t`'s block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v65).slice (win4_2.rect t)).set ↔ _
  rw [View.set_slice_whole, Rect.mem_set_unit]
  exact Iff.rfl

/-- Every row of the output lies in the block of the point numbered by its row divided by 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  refine ⟨⟨(i 0).val / 10000, by rw [show cfg4.N = 10 from N_4]; omega⟩, flush4_2 _, ?_⟩
  rw [mem_blk4]
  obtain ⟨e0, e1, e2, e3, e4, e5⟩ := idx_facts4 ⟨(i 0).val / 10000, by rw [show cfg4.N = 10 from N_4]; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ (i 0).val ∧ (i 0).val < (i 0).val / 10000 * 10000 + 10000; omega
  | ⟨1, _⟩ => show win4_2.index _ (1 : Fin 2) * 64 ≤ (i 1).val ∧ (i 1).val < win4_2.index _ (1 : Fin 2) * 64 + 64; rw [e5]; omega

/-- The output array after the region: the product of the two arrays the region found. -/
theorem arr4 (c : Dev nD) :
    (dat4 (F := Ideal) V c).arrAt 2 cfg4.N = mm64 (V c (Pipeline.arrRef spec4 0)) (V c (Pipeline.arrRef spec4 1)) :=
  (dat4 (F := Ideal) V c).arrAt_eq_of_cover 2 _ (fun t _ => flushed4_eq V c t) cover4

end Cert.KernelIdeal.Matmul

end
-- ==== Proof.LibTypedRef.lean ====
/-
  Typed references: the two transports between a value's type and its buffer's type are mutually inverse.

  A typed reference pairs a buffer with a proof that the buffer's type is the value's type; contents move between the
  two types by transport along that proof. Whatever the reference and the type, transporting there and back is the
  identity: once the type equation is substituted both transports are the identity function.
-/
import Idealize.ShloMosaic.Lib.StableHlo

namespace Idealize.ShloMosaic.StableHlo.TRef

variable {sig : RefSig} {Val : EltTy → Type} {T : BufTy}

/-- Contents transported to the buffer's type and back are the contents. -/
theorem ofBuf_toBuf (x : TRef sig T) (v : T.Contents Val) : x.ofBuf (x.toBuf v) = v := by
  obtain ⟨r, h, _, _⟩ := x
  subst h
  rfl

/-- Contents transported to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.Stretches.lean ====
/-
  The host stretches of the idealized kernel's @main, one lemma per buffer that a later segment reads.  The kernel's
  program and the reference apply the same host operations between the dense pieces: the same index lists, the same
  degree normalisation, per layer the same gather along the edges, scaling and scatter-add into the destination nodes,
  and the same dueling combination at the end.  Each lemma says: if the buffers a stretch reads hold the reference's
  values, the buffer it writes holds the reference's next value.  The contents at the stretch's entry are arbitrary, so
  nothing before the stretch is ever opened; the two sides are compared operation by operation, never evaluated.
-/
import proofs.«172456_j42700564856884_1_alg».proof.Proof.Gen.KernelIdeal.Frame
import proofs.«172456_j42700564856884_1_alg».proof.Proof.Gen.ReferenceIdeal.Read
import proofs.«172456_j42700564856884_1_alg».proof.Proof.LibTypedRef
import Idealize.ShloMosaic.Lib.StableHlo.Run
import Idealize.ShloMosaic.Lib.ValueLayout
import Idealize.ShloMosaic.Lib.ValueIdx

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.Read
open ValueIdx

set_option maxHeartbeats 4000000 in
/-- The source indices: the first row of the edge list followed by 0 … 99999 (the self loops). -/
theorem s0_v3 (Wp : Valuation τ sig (Elt Ideal)) :
    StableHlo.after (hostOps0 (F := Ideal)) Wp (Proc.devRef .tc main_v3) = val_main_v3 (F := Ideal) (Wp (Proc.devRef .tc main_arg1)) := by
  after_results_simp <;> rfl

set_option maxHeartbeats 4000000 in
/-- The destination indices: the second row of the edge list followed by 0 … 99999. -/
theorem s0_v7 (Wp : Valuation τ sig (Elt Ideal)) :
    StableHlo.after (hostOps0 (F := Ideal)) Wp (Proc.devRef .tc main_v7) = val_main_v7 (F := Ideal) (Wp (Proc.devRef .tc main_arg1)) := by
  after_results_simp <;> rfl

set_option maxHeartbeats 4000000 in
/-- The edge weights followed by a weight 1 for every self loop. -/
theorem s0_v9 (Wp : Valuation τ sig (Elt Ideal)) :
    StableHlo.after (hostOps0 (F := Ideal)) Wp (Proc.devRef .tc main_v9) = val_main_v9 (F := Ideal) (Wp (Proc.devRef .tc main_arg2)) := by
  after_results_simp <;> rfl

set_option maxHeartbeats 4000000 in
/-- Which nodes have positive degree, the degree being the sum of the weights arriving at the node. -/
theorem s0_v14 (Wp : Valuation τ sig (Elt Ideal)) :
    StableHlo.after (hostOps0 (F := Ideal)) Wp (Proc.devRef .tc main_v14) = val_main_v14 (F := Ideal) (Wp (Proc.devRef .tc main_arg1)) (Wp (Proc.devRef .tc main_arg2)) := by
  after_results_simp <;> rfl

set_option maxHeartbeats 4000000 in
/-- The reciprocal square root of every node's degree. -/
theorem s0_v15 (Wp : Valuation τ sig (Elt Ideal)) :
    StableHlo.after (hostOps0 (F := Ideal)) Wp (Proc.devRef .tc main_v15) = val_main_v15 (F := Ideal) (Wp (Proc.devRef .tc main_arg1)) (Wp (Proc.devRef .tc main_arg2)) := by
  after_results_simp <;> rfl

/-- The zero that replaces the reciprocal square root where the degree is not positive. -/
theorem s0_cst2 (Wp : Valuation τ sig (Elt Ideal)) :
    StableHlo.after (hostOps0 (F := Ideal)) Wp (Proc.devRef .tc main_cst_2) = val_main_cst_2 (F := Ideal) := by
  after_results
  rfl

/-- The normalising factor of every node: the reciprocal square root of its degree where that is positive, zero elsewhere. -/
theorem s01_v16 (Wp : Valuation τ sig (Elt Ideal)) (A1 : (⟨S2x1600000, .i32⟩ : BufTy).Contents (Elt Ideal)) (A2 : (⟨S1600000, .f32⟩ : BufTy).Contents (Elt Ideal))
    (h14 : Wp (Proc.devRef .tc main_v14) = val_main_v14 (F := Ideal) A1 A2)
    (h15 : Wp (Proc.devRef .tc main_v15) = val_main_v15 (F := Ideal) A1 A2)
    (hc : Wp (Proc.devRef .tc main_cst_2) = val_main_cst_2 (F := Ideal)) :
    StableHlo.after (hostOps0_1 (F := Ideal)) Wp (Proc.devRef .tc main_v16) = val_main_v16 (F := Ideal) A1 A2 := by
  after_results
  simp only [TRef.ofBuf_toBuf]
  show select (Wp (Proc.devRef .tc main_v14)) (Wp (Proc.devRef .tc main_v15)) (broadcastInDim S100000 ![] bcast_S_S100000 (id (Wp (Proc.devRef .tc main_cst_2)))) = _
  rw [h14, h15, hc]
  rfl

set_option maxHeartbeats 4000000 in
/-- The coefficient of every edge: the factor of its source, times its weight, times the factor of its destination. -/
theorem s02_v32 (Wp : Valuation τ sig (Elt Ideal)) (A1 : (⟨S2x1600000, .i32⟩ : BufTy).Contents (Elt Ideal)) (A2 : (⟨S1600000, .f32⟩ : BufTy).Contents (Elt Ideal))
    (h3 : Wp (Proc.devRef .tc main_v3) = val_main_v3 (F := Ideal) A1)
    (h7 : Wp (Proc.devRef .tc main_v7) = val_main_v7 (F := Ideal) A1)
    (h9 : Wp (Proc.devRef .tc main_v9) = val_main_v9 (F := Ideal) A2)
    (h16 : Wp (Proc.devRef .tc main_v16) = val_main_v16 (F := Ideal) A1 A2) :
    StableHlo.after (hostOps0_2 (F := Ideal)) Wp (Proc.devRef .tc main_v32) = val_main_v32 (F := Ideal) A1 A2 := by
  after_results_simp
  rw [h3, h7, h9, h16]
  rfl

set_option maxHeartbeats 4000000 in
/-- First layer: the rows of the product gathered along the edges, scaled by the edge coefficients and summed into their destination nodes. -/
theorem s1_v46 (Wp : Valuation τ sig (Elt Ideal)) (A0 : (⟨S100000x128, .f32⟩ : BufTy).Contents (Elt Ideal)) (A1 : (⟨S2x1600000, .i32⟩ : BufTy).Contents (Elt Ideal)) (A2 : (⟨S1600000, .f32⟩ : BufTy).Contents (Elt Ideal)) (A3 : (⟨S128x128, .f32⟩ : BufTy).Contents (Elt Ideal))
    (h32 : Wp (Proc.devRef .tc main_v32) = val_main_v32 (F := Ideal) A1 A2)
    (h3 : Wp (Proc.devRef .tc main_v3) = val_main_v3 (F := Ideal) A1)
    (h7 : Wp (Proc.devRef .tc main_v7) = val_main_v7 (F := Ideal) A1)
    (h33 : Wp (Proc.devRef .tc main_v33) = val_main_v33 (F := Ideal) A0 A3) :
    StableHlo.after (hostOps1 (F := Ideal)) Wp (Proc.devRef .tc main_v46) = val_main_v46 (F := Ideal) A0 A1 A2 A3 := by
  after_results_simp
  rw [h32, h3, h7, h33]
  rfl

/-- The first layer's bias laid out as one row. -/
theorem s1_v47 (Wp : Valuation τ sig (Elt Ideal)) (A4 : (⟨S128, .f32⟩ : BufTy).Contents (Elt Ideal))
    (h : Wp (Proc.devRef .tc main_arg4) = A4) (k : Fin 128) :
    StableHlo.after (hostOps1 (F := Ideal)) Wp (Proc.devRef .tc main_v47) (ix2 (0 : Fin 1) k) = A4 (ix1 k) := by
  after_results
  rw [h]
  exact shapeCast_a_1a_apply A4 _ 0 k

set_option maxHeartbeats 4000000 in
/-- Second layer: gather along the edges, scale, sum into the destinations. -/
theorem s3_v62 (Wp : Valuation τ sig (Elt Ideal)) (A0 : (⟨S100000x128, .f32⟩ : BufTy).Contents (Elt Ideal)) (A1 : (⟨S2x1600000, .i32⟩ : BufTy).Contents (Elt Ideal)) (A2 : (⟨S1600000, .f32⟩ : BufTy).Contents (Elt Ideal)) (A3 : (⟨S128x128, .f32⟩ : BufTy).Contents (Elt Ideal)) (A4 : (⟨S128, .f32⟩ : BufTy).Contents (Elt Ideal)) (A5 : (⟨S128x128, .f32⟩ : BufTy).Contents (Elt Ideal))
    (h32 : Wp (Proc.devRef .tc main_v32) = val_main_v32 (F := Ideal) A1 A2)
    (h3 : Wp (Proc.devRef .tc main_v3) = val_main_v3 (F := Ideal) A1)
    (h7 : Wp (Proc.devRef .tc main_v7) = val_main_v7 (F := Ideal) A1)
    (h49 : Wp (Proc.devRef .tc main_v49) = val_main_v51 (F := Ideal) A0 A1 A2 A3 A4 A5) :
    StableHlo.after (hostOps3 (F := Ideal)) Wp (Proc.devRef .tc main_v62) = val_main_v64 (F := Ideal) A0 A1 A2 A3 A4 A5 := by
  after_results_simp
  rw [h32, h3, h7, h49]
  rfl

/-- The second layer's bias laid out as one row. -/
theorem s3_v63 (Wp : Valuation τ sig (Elt Ideal)) (A6 : (⟨S128, .f32⟩ : BufTy).Contents (Elt Ideal))
    (h : Wp (Proc.devRef .tc main_arg6) = A6) (k : Fin 128) :
    StableHlo.after (hostOps3 (F := Ideal)) Wp (Proc.devRef .tc main_v63) (ix2 (0 : Fin 1) k) = A6 (ix1 k) := by
  after_results
  rw [h]
  exact shapeCast_a_1a_apply A6 _ 0 k

set_option maxHeartbeats 4000000 in
/-- Third layer: gather along the edges, scale, sum into the destinations. -/
theorem s5_v78 (Wp : Valuation τ sig (Elt Ideal)) (A0 : (⟨S100000x128, .f32⟩ : BufTy).Contents (Elt Ideal)) (A1 : (⟨S2x1600000, .i32⟩ : BufTy).Contents (Elt Ideal)) (A2 : (⟨S1600000, .f32⟩ : BufTy).Contents (Elt Ideal)) (A3 : (⟨S128x128, .f32⟩ : BufTy).Contents (Elt Ideal)) (A4 : (⟨S128, .f32⟩ : BufTy).Contents (Elt Ideal)) (A5 : (⟨S128x128, .f32⟩ : BufTy).Contents (Elt Ideal)) (A6 : (⟨S128, .f32⟩ : BufTy).Contents (Elt Ideal)) (A7 : (⟨S128x64, .f32⟩ : BufTy).Contents (Elt Ideal))
    (h32 : Wp (Proc.devRef .tc main_v32) = val_main_v32 (F := Ideal) A1 A2)
    (h3 : Wp (Proc.devRef .tc main_v3) = val_main_v3 (F := Ideal) A1)
    (h7 : Wp (Proc.devRef .tc main_v7) = val_main_v7 (F := Ideal) A1)
    (h65 : Wp (Proc.devRef .tc main_v65) = val_main_v69 (F := Ideal) A0 A1 A2 A3 A4 A5 A6 A7) :
    StableHlo.after (hostOps5 (F := Ideal)) Wp (Proc.devRef .tc main_v78) = val_main_v82 (F := Ideal) A0 A1 A2 A3 A4 A5 A6 A7 := by
  after_results_simp
  rw [h32, h3, h7, h65]
  rfl

/-- The third layer's bias laid out as one row. -/
theorem s5_v79 (Wp : Valuation τ sig (Elt Ideal)) (A8 : (⟨S64, .f32⟩ : BufTy).Contents (Elt Ideal))
    (h : Wp (Proc.devRef .tc main_arg8) = A8) (k : Fin 64) :
    StableHlo.after (hostOps5 (F := Ideal)) Wp (Proc.devRef .tc main_v79) (ix2 (0 : Fin 1) k) = A8 (ix1 k) := by
  after_results
  rw [h]
  exact shapeCast_a_1a_apply A8 _ 0 k

/-- The value branch's hidden bias laid out as one row. -/
theorem s6_v81 (Wp : Valuation τ sig (Elt Ideal)) (A10 : (⟨S32, .f32⟩ : BufTy).Contents (Elt Ideal))
    (h : Wp (Proc.devRef .tc main_arg10) = A10) (k : Fin 32) :
    StableHlo.after (hostOps6 (F := Ideal)) Wp (Proc.devRef .tc main_v81) (ix2 (0 : Fin 1) k) = A10 (ix1 k) := by
  after_results
  rw [h]
  exact shapeCast_a_1a_apply A10 _ 0 k

/-- The advantage branch's hidden bias laid out as one row. -/
theorem s6_v82 (Wp : Valuation τ sig (Elt Ideal)) (A14 : (⟨S32, .f32⟩ : BufTy).Contents (Elt Ideal))
    (h : Wp (Proc.devRef .tc main_arg14) = A14) (k : Fin 32) :
    StableHlo.after (hostOps6 (F := Ideal)) Wp (Proc.devRef .tc main_v82) (ix2 (0 : Fin 1) k) = A14 (ix1 k) := by
  after_results
  rw [h]
  exact shapeCast_a_1a_apply A14 _ 0 k

/-- The value branch's output bias as a one-by-one array. -/
theorem s6_v83 (Wp : Valuation τ sig (Elt Ideal)) (A12 : (⟨S1, .f32⟩ : BufTy).Contents (Elt Ideal))
    (h : Wp (Proc.devRef .tc main_arg12) = A12) (k : Fin 1) :
    StableHlo.after (hostOps6 (F := Ideal)) Wp (Proc.devRef .tc main_v83) (ix2 (0 : Fin 1) k) = A12 (ix1 k) := by
  after_results
  rw [h]
  exact shapeCast_a_1a_apply A12 _ 0 k

/-- The advantage branch's output bias as a one-by-one array. -/
theorem s6_v84 (Wp : Valuation τ sig (Elt Ideal)) (A16 : (⟨S1, .f32⟩ : BufTy).Contents (Elt Ideal))
    (h : Wp (Proc.devRef .tc main_arg16) = A16) (k : Fin 1) :
    StableHlo.after (hostOps6 (F := Ideal)) Wp (Proc.devRef .tc main_v84) (ix2 (0 : Fin 1) k) = A16 (ix1 k) := by
  after_results
  rw [h]
  exact shapeCast_a_1a_apply A16 _ 0 k

set_option maxHeartbeats 4000000 in
/-- The result: the value plus the advantage minus the mean of the advantages over the 100000 nodes. -/
theorem s7_v92 (Wp : Valuation τ sig (Elt Ideal)) (A0 : (⟨S100000x128, .f32⟩ : BufTy).Contents (Elt Ideal)) (A1 : (⟨S2x1600000, .i32⟩ : BufTy).Contents (Elt Ideal)) (A2 : (⟨S1600000, .f32⟩ : BufTy).Contents (Elt Ideal)) (A3 : (⟨S128x128, .f32⟩ : BufTy).Contents (Elt Ideal)) (A4 : (⟨S128, .f32⟩ : BufTy).Contents (Elt Ideal)) (A5 : (⟨S128x128, .f32⟩ : BufTy).Contents (Elt Ideal)) (A6 : (⟨S128, .f32⟩ : BufTy).Contents (Elt Ideal)) (A7 : (⟨S128x64, .f32⟩ : BufTy).Contents (Elt Ideal)) (A8 : (⟨S64, .f32⟩ : BufTy).Contents (Elt Ideal)) (A9 : (⟨S64x32, .f32⟩ : BufTy).Contents (Elt Ideal)) (A10 : (⟨S32, .f32⟩ : BufTy).Contents (Elt Ideal)) (A11 : (⟨S32x1, .f32⟩ : BufTy).Contents (Elt Ideal)) (A12 : (⟨S1, .f32⟩ : BufTy).Contents (Elt Ideal)) (A13 : (⟨S64x32, .f32⟩ : BufTy).Contents (Elt Ideal)) (A14 : (⟨S32, .f32⟩ : BufTy).Contents (Elt Ideal)) (A15 : (⟨S32x1, .f32⟩ : BufTy).Contents (Elt Ideal)) (A16 : (⟨S1, .f32⟩ : BufTy).Contents (Elt Ideal))
    (h0 : Wp (Proc.devRef .tc main_v85_0) = val_main_v95 (F := Ideal) A0 A1 A2 A3 A4 A5 A6 A7 A8 A9 A10 A11 A12)
    (h1 : Wp (Proc.devRef .tc main_v85_1) = val_main_v105 (F := Ideal) A0 A1 A2 A3 A4 A5 A6 A7 A8 A13 A14 A15 A16) :
    StableHlo.after (hostOps7 (F := Ideal)) Wp (Proc.devRef .tc main_v92) = val_main_v111 (F := Ideal) A0 A1 A2 A3 A4 A5 A6 A7 A8 A9 A10 A11 A12 A13 A14 A15 A16 := by
  after_results_simp
  rw [h0, h1]
  rfl

end Cert.KernelIdeal.Stretch

end
-- ==== Proof.BiasReluBlocks.lean ====
/- The three bias-and-rectify regions of the kernel, each read as ONE function of the arrays the region finds.
   Every grid point writes one block of 10000 rows: the matching rows of `agg`, plus the one row `b`, rectified at
   zero. The ten blocks cover the 100000 rows, so the array a region leaves is `max (agg + b) 0` row by row. -/
import proofs.«172456_j42700564856884_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.BiasRelu

open Cert.KernelIdeal Cert.KernelIdeal.Gen ValueIdx

/-! ## The specification -/

/-- Rows of `agg` plus the one row `b`, rectified at zero: at `(r, k)` the value `max (agg (r, k) + b (0, k)) 0`. -/
def biasRelu128 (agg : S100000x128.Idx → EReal) (b : S1x128.Idx → EReal) : S100000x128.Idx → EReal :=
  fun i => max (agg i + b (ix2 (0 : Fin 1) (⟨(i 1).val, (i 1).isLt⟩ : Fin 128))) (Ideal.ofBits .f32 0x00000000#32)

/-- The same over 64 columns. -/
def biasRelu64 (agg : S100000x64.Idx → EReal) (b : S1x64.Idx → EReal) : S100000x64.Idx → EReal :=
  fun i => max (agg i + b (ix2 (0 : Fin 1) (⟨(i 1).val, (i 1).isLt⟩ : Fin 64))) (Ideal.ofBits .f32 0x00000000#32)

/-- The zero offsets of a whole-buffer access, as the constant function. -/
theorem hz : (![0, 0] : Fin 2 → Nat) = fun _ => 0 := funext fun a => by fin_cases a <;> rfl

/-! ## The body's arithmetic at one element of a block -/

/-- Over 128 columns: the block's element plus the row's element in the same column, rectified at zero. -/
theorem pay128_apply (x0 : Vec Ideal S10000x128 .f32) (x1 : Vec Ideal S1x128 .f32) (p : Fin 10000) (q : Fin 128) :
    k1_pay1 (F := Ideal) x0 x1 (ix2 p q)
      = max (x0 (ix2 p q) + x1 (ix2 (0 : Fin 1) q)) (Ideal.ofBits .f32 0x00000000#32) := by
  show max (shapeCast S10000x128 x0 shapeCasts_S10000x128_S10000x128 (ix2 p q)
        + broadcastTo S10000x128 (shapeCast S1x128 x1 shapeCasts_S1x128_S1x128) broadcasts_S1x128_S10000x128 (ix2 p q))
      (Ideal.ofBits .f32 0x00000000#32) = _
  rw [shapeCast_self, shapeCast_self, broadcastTo_1b_ab_apply]

/-- The whole block as a function of its index. -/
theorem pay128_eq (x0 : Vec Ideal S10000x128 .f32) (x1 : Vec Ideal S1x128 .f32) :
    k1_pay1 (F := Ideal) x0 x1 = fun j : S10000x128.Idx =>
      max (x0 j + x1 (ix2 (0 : Fin 1) (⟨(j 1).val, (j 1).isLt⟩ : Fin 128))) (Ideal.ofBits .f32 0x00000000#32) := by
  funext j
  obtain ⟨p, q, rfl⟩ : ∃ (p : Fin 10000) (q : Fin 128), j = ix2 p q := ⟨j 0, j 1, eq_ix2 j⟩
  exact pay128_apply x0 x1 p q

/-- Over 64 columns. -/
theorem pay64_apply (x0 : Vec Ideal S10000x64 .f32) (x1 : Vec Ideal S1x64 .f32) (p : Fin 10000) (q : Fin 64) :
    k5_pay1 (F := Ideal) x0 x1 (ix2 p q)
      = max (x0 (ix2 p q) + x1 (ix2 (0 : Fin 1) q)) (Ideal.ofBits .f32 0x00000000#32) := by
  show max (shapeCast S10000x64 x0 shapeCasts_S10000x64_S10000x64 (ix2 p q)
        + broadcastTo S10000x64 (shapeCast S1x64 x1 shapeCasts_S1x64_S1x64) broadcasts_S1x64_S10000x64 (ix2 p q))
      (Ideal.ofBits .f32 0x00000000#32) = _
  rw [shapeCast_self, shapeCast_self, broadcastTo_1b_ab_apply]

theorem pay64_eq (x0 : Vec Ideal S10000x64 .f32) (x1 : Vec Ideal S1x64 .f32) :
    k5_pay1 (F := Ideal) x0 x1 = fun j : S10000x64.Idx =>
      max (x0 j + x1 (ix2 (0 : Fin 1) (⟨(j 1).val, (j 1).isLt⟩ : Fin 64))) (Ideal.ofBits .f32 0x00000000#32) := by
  funext j
  obtain ⟨p, q, rfl⟩ : ∃ (p : Fin 10000) (q : Fin 64), j = ix2 p q := ⟨j 0, j 1, eq_ix2 j⟩
  exact pay64_apply x0 x1 p q

/-- The third region's body is the first's, term for term. -/
theorem pay128_eq' (x0 : Vec Ideal S10000x128 .f32) (x1 : Vec Ideal S1x128 .f32) :
    k3_pay1 (F := Ideal) x0 x1 = fun j : S10000x128.Idx =>
      max (x0 j + x1 (ix2 (0 : Fin 1) (⟨(j 1).val, (j 1).isLt⟩ : Fin 128))) (Ideal.ofBits .f32 0x00000000#32) :=
  pay128_eq x0 x1

variable (V : (c : Dev nD) → (b : Ref sig .tc) → Buf (Elt Ideal) ((c : Thread nD τ).loc b)) (c : Dev nD)

/-! ## Region 1 -/

/-- The index maps over the grid: the input block moves with the output block, the row `b` stays, and point `t`
    writes block `t`. -/
theorem idx1 : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1000000 in
/-- What point `t` writes back is block `t` of `biasRelu128` of the two arrays the region finds. -/
theorem flushed1 (t : Fin cfg1.N) :
    (dat1 (F := Ideal) V c).flushed 2 t = ((cfg1.win 2).blk t).view.read (Elt Ideal)
      (biasRelu128 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S1x128) hz]
  rw [pay128_eq]
  obtain ⟨e0, e1, e2, e3, e4, e5⟩ := idx1 t
  funext j
  show FloatOps.maximumf (F := Ideal) (φ := .f32)
      (FloatOps.addf (F := Ideal) (φ := .f32) (V c (Pipeline.arrRef spec1 0) (((cfg1.win 0).blk t).view.emb j))
        (V c (Pipeline.arrRef spec1 1)
          (((cfg1.win 1).blk t).view.emb (ix2 (0 : Fin 1) (⟨(j 1).val, (j 1).isLt⟩ : Fin 128)))))
      (Ideal.ofBits .f32 0x00000000#32)
    = biasRelu128 (V c (Pipeline.arrRef spec1 0)) (V c (Pipeline.arrRef spec1 1)) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (⟨(j 1).val, (j 1).isLt⟩ : Fin 128))
      = ix2 (0 : Fin 1) (⟨((((cfg1.win 2).blk t).view.emb j) 1).val, ((((cfg1.win 2).blk t).view.emb j) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]
  rfl

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v48).slice (win1_2.rect t)).set ↔ _
  rw [View.set_slice_whole, Rect.mem_set_unit]
  exact Iff.rfl

/-- Row `r` is in the block of the point `r / 10000`: the ten blocks cover the array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < grid1.N; rw [N_1]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array region 1 leaves: `biasRelu128` of the two arrays it finds. -/
theorem arr1 : (dat1 (F := Ideal) V c).arrAt 2 cfg1.N
    = biasRelu128 (V c (Pipeline.arrRef spec1 0)) (V c (Pipeline.arrRef spec1 1)) :=
  (dat1 (F := Ideal) V c).arrAt_eq_of_cover 2 _ (fun t _ => flushed1 V c t) (cover1)

/-! ## Region 3 -/

/-- The index maps over the grid: the input block moves with the output block, the row `b` stays, and point `t`
    writes block `t`. -/
theorem idx3 : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point `t` writes back is block `t` of `biasRelu128` of the two arrays the region finds. -/
theorem flushed3 (t : Fin cfg3.N) :
    (dat3 (F := Ideal) V c).flushed 2 t = ((cfg3.win 2).blk t).view.read (Elt Ideal)
      (biasRelu128 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S10000x128) hz, View.ld_unit_zero (S := S1x128) hz]
  rw [pay128_eq']
  obtain ⟨e0, e1, e2, e3, e4, e5⟩ := idx3 t
  funext j
  show FloatOps.maximumf (F := Ideal) (φ := .f32)
      (FloatOps.addf (F := Ideal) (φ := .f32) (V c (Pipeline.arrRef spec3 0) (((cfg3.win 0).blk t).view.emb j))
        (V c (Pipeline.arrRef spec3 1)
          (((cfg3.win 1).blk t).view.emb (ix2 (0 : Fin 1) (⟨(j 1).val, (j 1).isLt⟩ : Fin 128)))))
      (Ideal.ofBits .f32 0x00000000#32)
    = biasRelu128 (V c (Pipeline.arrRef spec3 0)) (V c (Pipeline.arrRef spec3 1)) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (⟨(j 1).val, (j 1).isLt⟩ : Fin 128))
      = ix2 (0 : Fin 1) (⟨((((cfg3.win 2).blk t).view.emb j) 1).val, ((((cfg3.win 2).blk t).view.emb j) 1).isLt⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]
  rfl

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v64).slice (win3_2.rect t)).set ↔ _
  rw [View.set_slice_whole, Rect.mem_set_unit]
  exact Iff.rfl

/-- Row `r` is in the block of the point `r / 10000`: the ten blocks cover the array. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 10000 :=
    ⟨⟨(i 0).val / 10000, by show (i 0).val / 10000 < grid3.N; rw [N_3]; omega⟩, rfl⟩
  obtain ⟨-, -, -, -, e4, e5⟩ := idx3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The array region 3 leaves: `biasRelu128` of the two arrays it finds. -/
theorem arr3 : (dat3 (F := Ideal) V c).arrAt 2 cfg3.N
    = biasRelu128 (V c (Pipeline.arrRef spec3 0)) (V c (Pipeline.arrRef spec3 1)) :=
  (dat3 (F := Ideal) V c).arrAt_eq_of_cover 2 _ (fun t _ => flushed3 V c t) (cover3)

/-! ## Region 5 -/

/-- The index maps over the grid: the input block moves with the output block, the row `b` stays, and point `t`
    writes block `t`. -/
theorem idx5 : ∀ t : Fin cfg5.N,
    win5_0.index t (0 : Fin 2) = win5_2.index t (0 : Fin 2) ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

set_option maxHeartbeats 1000000 in
/-- What point `t` writes back is block `t` of `biasRelu64` of the two arrays the region finds. -/
theorem flushed5 (t : Fin cfg5.N) :
    (dat5 (F := Ideal) V c).flushed 2 t = ((cfg5.win 2).blk t).view.read (Elt Ideal)
      (biasRelu64 (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero hz]
  simp only [View.ld_unit_zero (S := S10000x64) hz, View.ld_unit_zero (S := S1x64) hz]
  rw [pay64_eq]
  obtain ⟨e0, e1, e2, e3, e4, e5⟩ := idx5 t
  funext j
  show FloatOps.maximumf (F := Ideal) (φ := .f32)
      (FloatOps.addf (F := Ideal) (φ := .f32) (V c (Pipeline.arrRef spec5 0) (((cfg5.win 0).blk t).view.emb j))
        (V c (Pipeline.arrRef spec5 1)
          (((cfg5.win 1).blk t).view.emb (ix2 (0 : Fin 1) (⟨(j 1).val, (j 1).isLt⟩ : Fin 64)))))
      (Ideal.ofBits .f32 0x00000000#32)
    = biasRelu64 (V c (Pipeline.arrRef spec5 0)) (V c (Pipeline.arrRef spec5 1)) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (⟨(j 1).val, (j 1).isLt⟩ : Fin 64))
      = ix2 (0 : Fin 1) (⟨((((cfg5.win 2).blk t).view.emb j) 1).val, ((((cfg5.win 2).blk t).view.emb j) 1).isLt⟩ : Fin 64) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]
  rfl

/-- An index of the array is in point `t`'s block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v80).slice (win5_2.rect t)).set ↔ _
  rw [View.set_slice_whole, Rect.mem_set_unit]
  exact Iff.rfl

/-- Row `r` is in the block of the point `r / 10000`: the ten blocks cover the array. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ : ∃ t : Fin cfg5.N, t.val = (i 0).val / 10000 :=
    ⟨⟨(i 0).val / 10000, by show (i 0).val / 10000 < grid5.N; rw [N_5]; omega⟩, rfl⟩
  obtain ⟨-, -, -, -, e4, e5⟩ := idx5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The array region 5 leaves: `biasRelu64` of the two arrays it finds. -/
theorem arr5 : (dat5 (F := Ideal) V c).arrAt 2 cfg5.N
    = biasRelu64 (V c (Pipeline.arrRef spec5 0)) (V c (Pipeline.arrRef spec5 1)) :=
  (dat5 (F := Ideal) V c).arrAt_eq_of_cover 2 _ (fun t _ => flushed5 V c t) (cover5)

end Cert.KernelIdeal.BiasRelu

end
-- ==== Proof.BiasReluRef.lean ====
/- The reference's three `relu (agg + b)` stages are the same function of the aggregate and the bias as the
   kernel's bias-and-rectify regions compute: at `(r, k)`, `max (agg (r, k) + b k) 0`. -/
import proofs.«172456_j42700564856884_1_alg».proof.Proof.Gen.ReferenceIdeal.Read
import proofs.«172456_j42700564856884_1_alg».proof.Proof.BiasReluBlocks

noncomputable section

open Idealize.ShloMosaic Idealize.ShloMosaic.TcCoe Idealize.SL.Sem

namespace Cert.ReferenceIdeal.BiasReluRef

open Cert.ReferenceIdeal Cert.ReferenceIdeal.Read ValueIdx

/-- The reference's `relu (agg + b)` of the first layer is `biasRelu128` of its aggregate and of any [1, 128] array
    that holds `b` in its one row. -/
theorem ref1 {x0 : (⟨S100000x128, .f32⟩ : BufTy).Contents (Elt Ideal)}
    {x1 : (⟨S2x1600000, .i32⟩ : BufTy).Contents (Elt Ideal)}
    {x2 : (⟨S1600000, .f32⟩ : BufTy).Contents (Elt Ideal)}
    {x3 : (⟨S128x128, .f32⟩ : BufTy).Contents (Elt Ideal)}
    {x4 : (⟨S128, .f32⟩ : BufTy).Contents (Elt Ideal)}
    (b' : Cert.KernelIdeal.S1x128.Idx → EReal) (hb : ∀ k : Fin 128, b' (ix2 (0 : Fin 1) k) = x4 (ix1 k)) :
    val_main_v50 (F := Ideal) x0 x1 x2 x3 x4
      = Cert.KernelIdeal.BiasRelu.biasRelu128 (val_main_v46 (F := Ideal) x0 x1 x2 x3) b' := by
  funext i
  rw [val_main_v50_apply, val_main_v49_apply, val_main_call1_v0_apply, val_main_call1_cst_apply,
    val_main_v48_apply, val_main_v47_apply]
  show max (val_main_v46 (F := Ideal) x0 x1 x2 x3 i + x4 (idx_main_v47 (idx_main_v48 i)))
      (Ideal.ofBits .f32 0x00000000#32)
    = max (val_main_v46 (F := Ideal) x0 x1 x2 x3 i + b' (ix2 (0 : Fin 1) (⟨(i 1).val, (i 1).isLt⟩ : Fin 128)))
        (Ideal.ofBits .f32 0x00000000#32)
  rw [hb]
  have e : idx_main_v47 (idx_main_v48 i) = ix1 (⟨(i 1).val, (i 1).isLt⟩ : Fin 128) :=
    funext fun a => Fin.ext (by match a with | ⟨0, _⟩ => rfl)
  rw [e]

/-- The reference's `relu (agg + b)` of the second layer is `biasRelu128` of its aggregate and of any [1, 128] array
    that holds `b` in its one row. -/
theorem ref2 {x0 : (⟨S100000x128, .f32⟩ : BufTy).Contents (Elt Ideal)}
    {x1 : (⟨S2x1600000, .i32⟩ : BufTy).Contents (Elt Ideal)}
    {x2 : (⟨S1600000, .f32⟩ : BufTy).Contents (Elt Ideal)}
    {x3 : (⟨S128x128, .f32⟩ : BufTy).Contents (Elt Ideal)}
    {x4 : (⟨S128, .f32⟩ : BufTy).Contents (Elt Ideal)}
    {x5 : (⟨S128x128, .f32⟩ : BufTy).Contents (Elt Ideal)}
    {x6 : (⟨S128, .f32⟩ : BufTy).Contents (Elt Ideal)}
    (b' : Cert.KernelIdeal.S1x128.Idx → EReal) (hb : ∀ k : Fin 128, b' (ix2 (0 : Fin 1) k) = x6 (ix1 k)) :
    val_main_v68 (F := Ideal) x0 x1 x2 x3 x4 x5 x6
      = Cert.KernelIdeal.BiasRelu.biasRelu128 (val_main_v64 (F := Ideal) x0 x1 x2 x3 x4 x5) b' := by
  funext i
  rw [val_main_v68_apply, val_main_v67_apply, val_main_call2_v0_apply, val_main_call2_cst_apply,
    val_main_v66_apply, val_main_v65_apply]
  show max (val_main_v64 (F := Ideal) x0 x1 x2 x3 x4 x5 i + x6 (idx_main_v65 (idx_main_v66 i)))
      (Ideal.ofBits .f32 0x00000000#32)
    = max (val_main_v64 (F := Ideal) x0 x1 x2 x3 x4 x5 i + b' (ix2 (0 : Fin 1) (⟨(i 1).val, (i 1).isLt⟩ : Fin 128)))
        (Ideal.ofBits .f32 0x00000000#32)
  rw [hb]
  have e : idx_main_v65 (idx_main_v66 i) = ix1 (⟨(i 1).val, (i 1).isLt⟩ : Fin 128) :=
    funext fun a => Fin.ext (by match a with | ⟨0, _⟩ => rfl)
  rw [e]

/-- The reference's `relu (agg + b)` of the third layer is `biasRelu64` of its aggregate and of any [1, 64] array
    that holds `b` in its one row. -/
theorem ref3 {x0 : (⟨S100000x128, .f32⟩ : BufTy).Contents (Elt Ideal)}
    {x1 : (⟨S2x1600000, .i32⟩ : BufTy).Contents (Elt Ideal)}
    {x2 : (⟨S1600000, .f32⟩ : BufTy).Contents (Elt Ideal)}
    {x3 : (⟨S128x128, .f32⟩ : BufTy).Contents (Elt Ideal)}
    {x4 : (⟨S128, .f32⟩ : BufTy).Contents (Elt Ideal)}
    {x5 : (⟨S128x128, .f32⟩ : BufTy).Contents (Elt Ideal)}
    {x6 : (⟨S128, .f32⟩ : BufTy).Contents (Elt Ideal)}
    {x7 : (⟨S128x64, .f32⟩ : BufTy).Contents (Elt Ideal)}
    {x8 : (⟨S64, .f32⟩ : BufTy).Contents (Elt Ideal)}
    (b' : Cert.KernelIdeal.S1x64.Idx → EReal) (hb : ∀ k : Fin 64, b' (ix2 (0 : Fin 1) k) = x8 (ix1 k)) :
    val_main_v86 (F := Ideal) x0 x1 x2 x3 x4 x5 x6 x7 x8
      = Cert.KernelIdeal.BiasRelu.biasRelu64 (val_main_v82 (F := Ideal) x0 x1 x2 x3 x4 x5 x6 x7) b' := by
  funext i
  rw [val_main_v86_apply, val_main_v85_apply, val_main_call3_v0_apply, val_main_call3_cst_apply,
    val_main_v84_apply, val_main_v83_apply]
  show max (val_main_v82 (F := Ideal) x0 x1 x2 x3 x4 x5 x6 x7 i + x8 (idx_main_v83 (idx_main_v84 i)))
      (Ideal.ofBits .f32 0x00000000#32)
    = max (val_main_v82 (F := Ideal) x0 x1 x2 x3 x4 x5 x6 x7 i + b' (ix2 (0 : Fin 1) (⟨(i 1).val, (i 1).isLt⟩ : Fin 64)))
        (Ideal.ofBits .f32 0x00000000#32)
  rw [hb]
  have e : idx_main_v83 (idx_main_v84 i) = ix1 (⟨(i 1).val, (i 1).isLt⟩ : Fin 64) :=
    funext fun a => Fin.ext (by match a with | ⟨0, _⟩ => rfl)
  rw [e]

end Cert.ReferenceIdeal.BiasReluRef

end
-- ==== Proof.HeadBlocks.lean ====
/- The two output arrays of the last region, each as ONE function of the region's input arrays:
   a row of the hidden features times a 64×32 matrix, plus a bias row, clamped below at zero, times a 32×1
   column, plus a bias. First the function (`branch`), then the body's result at an index of a row block,
   then the whole array after the region from the row blocks. -/
import proofs.«172456_j42700564856884_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem

namespace Cert.KernelIdeal.Head

open Cert.KernelIdeal Cert.KernelIdeal.Gen Idealize.ShloMosaic.ValueIdx
open Idealize.ShloMosaic.Pipeline (Dat)
open scoped BigOperators

/-! ## The function -/

/-- One head of the network at row `i 0`: `relu (h · W1 + b1) · W2 + b2`, the two products written as sums over
    the 64 and the 32 inner coordinates, the clamp as a maximum with the zero word's value. -/
def branch (h : S100000x64.Idx → EReal) (W1 : S64x32.Idx → EReal) (b1 : S1x32.Idx → EReal)
    (W2 : S32x1.Idx → EReal) (b2 : S1x1.Idx → EReal) : S100000x1.Idx → EReal :=
  fun i => (∑ k2 : Fin 32, max ((∑ k1 : Fin 64, h (ix2 (⟨(i 0).val, (i 0).isLt⟩ : Fin 100000) k1) * W1 (ix2 k1 k2))
      + b1 (ix2 (0 : Fin 1) k2)) (Ideal.ofBits .f32 0x00000000#32) * W2 (ix2 k2 (0 : Fin 1))) + b2 (ix2 (0 : Fin 1) (0 : Fin 1))

/-! ## The two matrix products of the body at an index -/

theorem dot1_lhs0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem dot1_lhs1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem dot1_rhs0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem dot1_rhs1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

theorem dot2_lhs0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
theorem dot2_lhs1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q
theorem dot2_rhs0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q
theorem dot2_rhs1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- A 10000×64 block times a 64×32 matrix into the zero accumulator, at `(p, q)`: the sum over the 64 inner coordinates. -/
theorem matmul1_apply (l : FVec Ideal S10000x64 .bf16) (r : FVec Ideal S64x32 .bf16) (p : Fin 10000) (q : Fin 32) :
    matmul dot_S10000x64_S64x32_S10000x32_1_0_0_1_n_n none l r (constant (F := Ideal) S10000x32 .f32 0x00000000#32) (ix2 p q)
      = ∑ k : Fin 64, l (ix2 p k) * r (ix2 k q) := by
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact dot1_lhs0 _ _
    | ⟨1, _⟩ => exact (dot1_lhs1 _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (dot1_rhs0 _ _).trans hk
    | ⟨1, _⟩ => exact dot1_rhs1 _ _)
  rw [el, er]

/-- A 10000×32 block times a 32×1 column into the zero accumulator, at `(p, q)`: the sum over the 32 inner coordinates. -/
theorem matmul2_apply (l : FVec Ideal S10000x32 .bf16) (r : FVec Ideal S32x1 .bf16) (p : Fin 10000) (q : Fin 1) :
    matmul dot_S10000x32_S32x1_S10000x1_1_0_0_1_n_n none l r (constant (F := Ideal) S10000x1 .f32 0x00000000#32) (ix2 p q)
      = ∑ k : Fin 32, l (ix2 p k) * r (ix2 k q) := by
  simp only [matmul]
  rw [Ideal.matmul_constant_zero_apply, ← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx (ix2 p q) ((ValueIdx.contrEquiv1 dot_S10000x32_S32x1_S10000x1_1_0_0_1_n_n 32 rfl rfl).symm k) = ix2 p k := funext fun a => Fin.ext (by
    match a with
    | ⟨0, _⟩ => exact dot2_lhs0 _ _
    | ⟨1, _⟩ => exact (dot2_lhs1 _ _).trans hk)
  have er : dot_S10000x32_S32x1_S10000x1_1_0_0_1_n_n.rhsIdx (ix2 p q) ((ValueIdx.contrEquiv1 dot_S10000x32_S32x1_S10000x1_1_0_0_1_n_n 32 rfl rfl).symm k) = ix2 k q := funext fun a => Fin.ext (by
    match a with
    | ⟨0, _⟩ => exact (dot2_rhs0 _ _).trans hk
    | ⟨1, _⟩ => exact dot2_rhs1 _ _)
  rw [el, er]

/-! ## The body's two results at an index of the row block -/

/-- The first output block at `(p, q)`: the head of the block's row `p`. -/
theorem pay_value_apply (x0 : Vec Ideal S10000x64 .f32) (x1 : Vec Ideal S64x32 .f32) (x2 : Vec Ideal S1x32 .f32)
    (x3 : Vec Ideal S32x1 .f32) (x4 : Vec Ideal S1x1 .f32) (p : Fin 10000) (q : Fin 1) :
    k6_pay3 x0 x1 x2 x3 x4 (ix2 p q)
      = (∑ k2 : Fin 32, max ((∑ k1 : Fin 64, x0 (ix2 p k1) * x1 (ix2 k1 k2)) + x2 (ix2 (0 : Fin 1) k2))
        (Ideal.ofBits .f32 0x00000000#32) * x3 (ix2 k2 q)) + x4 (ix2 (0 : Fin 1) q) := by
  simp only [k6_pay3, k6_pay2, shapeCast_self, Ideal.ofBits_def]
  rw [addf_apply, matmul2_apply, broadcastTo_1b_ab_apply]
  refine congrArg (· + x4 (ix2 (0 : Fin 1) q)) (Finset.sum_congr rfl fun k2 _ => ?_)
  rw [truncf_apply, truncf_apply, maximumf_apply, addf_apply, matmul1_apply, broadcastTo_1b_ab_apply, broadcast_apply]
  refine congrArg (fun s => max (s + x2 (ix2 (0 : Fin 1) k2)) _ * x3 (ix2 k2 q)) (Finset.sum_congr rfl fun k1 _ => ?_)
  rw [truncf_apply, truncf_apply]

/-- The second output block at `(p, q)`: the same head over the second group of weights. -/
theorem pay_adv_apply (x0 : Vec Ideal S10000x64 .f32) (x5 : Vec Ideal S64x32 .f32) (x6 : Vec Ideal S1x32 .f32)
    (x7 : Vec Ideal S32x1 .f32) (x8 : Vec Ideal S1x1 .f32) (p : Fin 10000) (q : Fin 1) :
    k6_pay1 (k6_pay4 x0 x5 x6 x7) x8 (ix2 p q)
      = (∑ k2 : Fin 32, max ((∑ k1 : Fin 64, x0 (ix2 p k1) * x5 (ix2 k1 k2)) + x6 (ix2 (0 : Fin 1) k2))
        (Ideal.ofBits .f32 0x00000000#32) * x7 (ix2 k2 q)) + x8 (ix2 (0 : Fin 1) q) := by
  simp only [k6_pay1, k6_pay4, k6_pay2, shapeCast_self, Ideal.ofBits_def]
  rw [addf_apply, matmul2_apply, broadcastTo_1b_ab_apply]
  refine congrArg (· + x8 (ix2 (0 : Fin 1) q)) (Finset.sum_congr rfl fun k2 _ => ?_)
  rw [truncf_apply, truncf_apply, maximumf_apply, addf_apply, matmul1_apply, broadcastTo_1b_ab_apply, broadcast_apply]
  refine congrArg (fun s => max (s + x6 (ix2 (0 : Fin 1) k2)) _ * x7 (ix2 k2 q)) (Finset.sum_congr rfl fun k1 _ => ?_)
  rw [truncf_apply, truncf_apply]

/-- The head of a block's row IS `branch` at the array's row, once each block entry is the array's entry. -/
theorem branch_of_block (H : S100000x64.Idx → EReal) (W1 : S64x32.Idx → EReal) (b1 : S1x32.Idx → EReal)
    (W2 : S32x1.Idx → EReal) (b2 : S1x1.Idx → EReal)
    (x0 : Vec Ideal S10000x64 .f32) (x1 : Vec Ideal S64x32 .f32) (x2 : Vec Ideal S1x32 .f32)
    (x3 : Vec Ideal S32x1 .f32) (x4 : Vec Ideal S1x1 .f32) (i : S100000x1.Idx) (p : Fin 10000) (q : Fin 1)
    (h0 : ∀ k1 : Fin 64, x0 (ix2 p k1) = H (ix2 (⟨(i 0).val, (i 0).isLt⟩ : Fin 100000) k1))
    (h1 : ∀ (k1 : Fin 64) (k2 : Fin 32), x1 (ix2 k1 k2) = W1 (ix2 k1 k2))
    (h2 : ∀ k2 : Fin 32, x2 (ix2 (0 : Fin 1) k2) = b1 (ix2 (0 : Fin 1) k2))
    (h3 : ∀ k2 : Fin 32, x3 (ix2 k2 (0 : Fin 1)) = W2 (ix2 k2 (0 : Fin 1)))
    (h4 : x4 (ix2 (0 : Fin 1) (0 : Fin 1)) = b2 (ix2 (0 : Fin 1) (0 : Fin 1))) :
    (∑ k2 : Fin 32, max ((∑ k1 : Fin 64, x0 (ix2 p k1) * x1 (ix2 k1 k2)) + x2 (ix2 (0 : Fin 1) k2))
        (Ideal.ofBits .f32 0x00000000#32) * x3 (ix2 k2 q)) + x4 (ix2 (0 : Fin 1) q) = branch H W1 b1 W2 b2 i := by
  obtain rfl : q = 0 := Subsingleton.elim _ _
  unfold branch
  simp only [h0, h1, h2, h3, h4]

/-! ## From the row blocks to the whole arrays -/

theorem hz : (![0, 0] : Fin 2 → Nat) = fun _ => 0 := funext fun a => by fin_cases a <;> rfl

/-- The printed index maps, decided over the ten grid points: the hidden-feature window and both output windows sit at
    the same row block, which is below ten; every other block index is zero. -/
theorem idx_facts : ∀ t : Fin cfg6.N, win6_0.index t (0 : Fin 2) = win6_9.index t (0 : Fin 2)
    ∧ win6_0.index t (1 : Fin 2) = 0
    ∧ win6_10.index t (0 : Fin 2) = win6_9.index t (0 : Fin 2)
    ∧ win6_10.index t (1 : Fin 2) = 0
    ∧ win6_9.index t (1 : Fin 2) = 0
    ∧ win6_9.index t (0 : Fin 2) ≤ 9
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0 :=
  (by decide +kernel : ∀ t : Fin grid6.N, _)

/-- Every row block is SOME point's. -/
theorem idx_onto : ∀ q0 : Fin 10, ∃ t : Fin cfg6.N, win6_9.index t (0 : Fin 2) = q0.val :=
  (by decide +kernel : ∀ q0 : Fin 10, ∃ t : Fin grid6.N, win6_9.index t (0 : Fin 2) = q0.val)

/-- Window 1's block at any point is its whole array. -/
theorem blk1_apply (V : (c : Dev nD) → (b : Ref sig .tc) → Buf (Elt Ideal) ((c : Thread nD τ).loc b)) (c : Dev nD) (t : Fin cfg6.N) (a : Fin 64) (b : Fin 32) :
    iblk6 V c 1 t (ix2 a b) = V c (Pipeline.arrRef spec6 1) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 1) (((cfg6.win 1).blk t).view.emb (ix2 a b)) = _
  refine congrArg _ (funext fun d => Fin.ext ?_)
  match d with
  | ⟨0, _⟩ => show win6_1.index t (0 : Fin 2) * 64 + 1 * a.val = a.val; omega
  | ⟨1, _⟩ => show win6_1.index t (1 : Fin 2) * 32 + 1 * b.val = b.val; omega

/-- Window 2's block at any point is its whole array. -/
theorem blk2_apply (V : (c : Dev nD) → (b : Ref sig .tc) → Buf (Elt Ideal) ((c : Thread nD τ).loc b)) (c : Dev nD) (t : Fin cfg6.N) (a : Fin 1) (b : Fin 32) :
    iblk6 V c 2 t (ix2 a b) = V c (Pipeline.arrRef spec6 2) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 2) (((cfg6.win 2).blk t).view.emb (ix2 a b)) = _
  refine congrArg _ (funext fun d => Fin.ext ?_)
  match d with
  | ⟨0, _⟩ => show win6_2.index t (0 : Fin 2) * 1 + 1 * a.val = a.val; omega
  | ⟨1, _⟩ => show win6_2.index t (1 : Fin 2) * 32 + 1 * b.val = b.val; omega

/-- Window 3's block at any point is its whole array. -/
theorem blk3_apply (V : (c : Dev nD) → (b : Ref sig .tc) → Buf (Elt Ideal) ((c : Thread nD τ).loc b)) (c : Dev nD) (t : Fin cfg6.N) (a : Fin 32) (b : Fin 1) :
    iblk6 V c 3 t (ix2 a b) = V c (Pipeline.arrRef spec6 3) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 3) (((cfg6.win 3).blk t).view.emb (ix2 a b)) = _
  refine congrArg _ (funext fun d => Fin.ext ?_)
  match d with
  | ⟨0, _⟩ => show win6_3.index t (0 : Fin 2) * 32 + 1 * a.val = a.val; omega
  | ⟨1, _⟩ => show win6_3.index t (1 : Fin 2) * 1 + 1 * b.val = b.val; omega

/-- Window 4's block at any point is its whole array. -/
theorem blk4_apply (V : (c : Dev nD) → (b : Ref sig .tc) → Buf (Elt Ideal) ((c : Thread nD τ).loc b)) (c : Dev nD) (t : Fin cfg6.N) (a : Fin 1) (b : Fin 1) :
    iblk6 V c 4 t (ix2 a b) = V c (Pipeline.arrRef spec6 4) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 4) (((cfg6.win 4).blk t).view.emb (ix2 a b)) = _
  refine congrArg _ (funext fun d => Fin.ext ?_)
  match d with
  | ⟨0, _⟩ => show win6_4.index t (0 : Fin 2) * 1 + 1 * a.val = a.val; omega
  | ⟨1, _⟩ => show win6_4.index t (1 : Fin 2) * 1 + 1 * b.val = b.val; omega

/-- Window 5's block at any point is its whole array. -/
theorem blk5_apply (V : (c : Dev nD) → (b : Ref sig .tc) → Buf (Elt Ideal) ((c : Thread nD τ).loc b)) (c : Dev nD) (t : Fin cfg6.N) (a : Fin 64) (b : Fin 32) :
    iblk6 V c 5 t (ix2 a b) = V c (Pipeline.arrRef spec6 5) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 5) (((cfg6.win 5).blk t).view.emb (ix2 a b)) = _
  refine congrArg _ (funext fun d => Fin.ext ?_)
  match d with
  | ⟨0, _⟩ => show win6_5.index t (0 : Fin 2) * 64 + 1 * a.val = a.val; omega
  | ⟨1, _⟩ => show win6_5.index t (1 : Fin 2) * 32 + 1 * b.val = b.val; omega

/-- Window 6's block at any point is its whole array. -/
theorem blk6_apply (V : (c : Dev nD) → (b : Ref sig .tc) → Buf (Elt Ideal) ((c : Thread nD τ).loc b)) (c : Dev nD) (t : Fin cfg6.N) (a : Fin 1) (b : Fin 32) :
    iblk6 V c 6 t (ix2 a b) = V c (Pipeline.arrRef spec6 6) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 6) (((cfg6.win 6).blk t).view.emb (ix2 a b)) = _
  refine congrArg _ (funext fun d => Fin.ext ?_)
  match d with
  | ⟨0, _⟩ => show win6_6.index t (0 : Fin 2) * 1 + 1 * a.val = a.val; omega
  | ⟨1, _⟩ => show win6_6.index t (1 : Fin 2) * 32 + 1 * b.val = b.val; omega

/-- Window 7's block at any point is its whole array. -/
theorem blk7_apply (V : (c : Dev nD) → (b : Ref sig .tc) → Buf (Elt Ideal) ((c : Thread nD τ).loc b)) (c : Dev nD) (t : Fin cfg6.N) (a : Fin 32) (b : Fin 1) :
    iblk6 V c 7 t (ix2 a b) = V c (Pipeline.arrRef spec6 7) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 7) (((cfg6.win 7).blk t).view.emb (ix2 a b)) = _
  refine congrArg _ (funext fun d => Fin.ext ?_)
  match d with
  | ⟨0, _⟩ => show win6_7.index t (0 : Fin 2) * 32 + 1 * a.val = a.val; omega
  | ⟨1, _⟩ => show win6_7.index t (1 : Fin 2) * 1 + 1 * b.val = b.val; omega

/-- Window 8's block at any point is its whole array. -/
theorem blk8_apply (V : (c : Dev nD) → (b : Ref sig .tc) → Buf (Elt Ideal) ((c : Thread nD τ).loc b)) (c : Dev nD) (t : Fin cfg6.N) (a : Fin 1) (b : Fin 1) :
    iblk6 V c 8 t (ix2 a b) = V c (Pipeline.arrRef spec6 8) (ix2 a b) := by
  obtain ⟨e0, e0c, eA, eAc, e9c, e9b, z1r, z1c, z2r, z2c, z3r, z3c, z4r, z4c, z5r, z5c, z6r, z6c, z7r, z7c, z8r, z8c⟩ := idx_facts t
  show V c (Pipeline.arrRef spec6 8) (((cfg6.win 8).blk t).view.emb (ix2 a b)) = _
  refine congrArg _ (funext fun d => Fin.ext ?_)
  match d with
  | ⟨0, _⟩ => show win6_8.index t (0 : Fin 2) * 1 + 1 * a.val = a.val; omega
  | ⟨1, _⟩ => show win6_8.index t (1 : Fin 2) * 1 + 1 * b.val = b.val; omega

/-! ## Output window 9 -/

/-- The body's result for window 9 at `(p, q)` of point `t`'s blocks is `branch` of the input arrays at the array index
    the output block puts `(p, q)` at: the hidden-feature block sits at the same rows, every other block is its whole array. -/
theorem value_point (V : (c : Dev nD) → (b : Ref sig .tc) → Buf (Elt Ideal) ((c : Thread nD τ).loc b)) (c : Dev nD) (t : Fin cfg6.N) (p : Fin 10000) (q : Fin 1) :
    k6_pay3 (iblk6 V c 0 t) (iblk6 V c 1 t) (iblk6 V c 2 t) (iblk6 V c 3 t) (iblk6 V c 4 t) (ix2 p q)
      = branch (V c (Pipeline.arrRef spec6 0)) (V c (Pipeline.arrRef spec6 1)) (V c (Pipeline.arrRef spec6 2))
        (V c (Pipeline.arrRef spec6 3)) (V c (Pipeline.arrRef spec6 4)) (((cfg6.win 9).blk t).view.emb (ix2 p q)) := by
  obtain ⟨e0, e0c, eA, eAc, e9c, e9b, z1r, z1c, z2r, z2c, z3r, z3c, z4r, z4c, z5r, z5c, z6r, z6c, z7r, z7c, z8r, z8c⟩ := idx_facts t
  rw [pay_value_apply]
  refine branch_of_block _ _ _ _ _ _ _ _ _ _ _ p q (fun k1 => ?_) (fun k1 k2 => blk1_apply V c t k1 k2)
    (fun k2 => blk2_apply V c t 0 k2) (fun k2 => blk3_apply V c t k2 0) (blk4_apply V c t 0 0)
  show V c (Pipeline.arrRef spec6 0) (((cfg6.win 0).blk t).view.emb (ix2 p k1)) = _
  refine congrArg _ (funext fun d => Fin.ext ?_)
  match d with
  | ⟨0, _⟩ => show win6_0.index t (0 : Fin 2) * 10000 + 1 * p.val = win6_9.index t (0 : Fin 2) * 10000 + 1 * p.val; omega
  | ⟨1, _⟩ => show win6_0.index t (1 : Fin 2) * 64 + 1 * k1.val = k1.val; omega

/-- WHAT POINT `t` WRITES BACK to window 9's array is block `t` of `branch` of the input arrays as the region finds them. -/
theorem value_flushed (V : (c : Dev nD) → (b : Ref sig .tc) → Buf (Elt Ideal) ((c : Thread nD τ).loc b)) (c : Dev nD) (t : Fin cfg6.N) :
    (dat6 (F := Ideal) V c).flushed 9 t = ((cfg6.win 9).blk t).view.read (Elt Ideal)
      (branch (V c (Pipeline.arrRef spec6 0)) (V c (Pipeline.arrRef spec6 1)) (V c (Pipeline.arrRef spec6 2))
        (V c (Pipeline.arrRef spec6 3)) (V c (Pipeline.arrRef spec6 4))) := by
  show (cfg6.win 9).cut (grid6.coords t) ((dat6 V c).after 9 t) = _
  rw [after6_9]
  unfold out6_9
  rw [View.canon_unit_zero hz]
  simp only [View.ld_unit_zero (S := S10000x64) hz, View.ld_unit_zero (S := S64x32) hz, View.ld_unit_zero (S := S1x32) hz,
    View.ld_unit_zero (S := S32x1) hz, View.ld_unit_zero (S := S1x1) hz]
  funext j
  obtain ⟨p, q, rfl⟩ : ∃ (p : Fin 10000) (q : Fin 1), j = ix2 p q := ⟨j 0, j 1, eq_ix2 j⟩
  exact value_point V c t p q

/-- An index of the array is in point `t`'s block iff each coordinate is in the block's range on its axis. -/
theorem value_mem_blk (t : Fin cfg6.N) (i : S100000x1.Idx) :
    i ∈ ((cfg6.win 9).blk t).view.set ↔ ∀ a : Fin 2, win6_9.index t a * S10000x1.size a ≤ (i a).val ∧ (i a).val < win6_9.index t a * S10000x1.size a + S10000x1.size a := by
  show i ∈ ((View.whole main_v85_0).slice (win6_9.rect t)).set ↔ _
  rw [View.set_slice_whole, Rect.mem_set_unit]
  exact Iff.rfl

/-- Every row of the array is in the block of the point `row / 10000`. -/
theorem value_cover (i : S100000x1.Idx) :
    ∃ t : Fin cfg6.N, (cfg6.win 9).flush t = true ∧ i ∈ ((cfg6.win 9).blk t).view.set := by
  have hi0 : (i 0).val < 100000 := (i 0).isLt
  have hi1 : (i 1).val < 1 := (i 1).isLt
  obtain ⟨t, ht⟩ := idx_onto ⟨(i 0).val / 10000, by omega⟩
  obtain ⟨e0, e0c, eA, eAc, e9c, e9b, z1r, z1c, z2r, z2c, z3r, z3c, z4r, z4c, z5r, z5c, z6r, z6c, z7r, z7c, z8r, z8c⟩ := idx_facts t
  have q0 : win6_9.index t (0 : Fin 2) = (i 0).val / 10000 := ht
  refine ⟨t, flush6_9 t, ?_⟩
  rw [value_mem_blk]
  intro a
  match a with
  | ⟨0, _⟩ => show win6_9.index t (0 : Fin 2) * 10000 ≤ (i 0).val ∧ (i 0).val < win6_9.index t (0 : Fin 2) * 10000 + 10000; omega
  | ⟨1, _⟩ => show win6_9.index t (1 : Fin 2) * 1 ≤ (i 1).val ∧ (i 1).val < win6_9.index t (1 : Fin 2) * 1 + 1; omega

/-- THE ARRAY after the region: `branch` of the input arrays. -/
theorem value_array (V : (c : Dev nD) → (b : Ref sig .tc) → Buf (Elt Ideal) ((c : Thread nD τ).loc b)) (c : Dev nD) :
    (dat6 (F := Ideal) V c).arrAt 9 cfg6.N
      = branch (V c (Pipeline.arrRef spec6 0)) (V c (Pipeline.arrRef spec6 1)) (V c (Pipeline.arrRef spec6 2))
        (V c (Pipeline.arrRef spec6 3)) (V c (Pipeline.arrRef spec6 4)) :=
  (dat6 (F := Ideal) V c).arrAt_eq_of_cover 9 _ (fun t _ => value_flushed V c t) value_cover

/-! ## Output window 10 -/

/-- The body's result for window 10 at `(p, q)` of point `t`'s blocks is `branch` of the input arrays at the array index
    the output block puts `(p, q)` at: the hidden-feature block sits at the same rows, every other block is its whole array. -/
theorem adv_point (V : (c : Dev nD) → (b : Ref sig .tc) → Buf (Elt Ideal) ((c : Thread nD τ).loc b)) (c : Dev nD) (t : Fin cfg6.N) (p : Fin 10000) (q : Fin 1) :
    k6_pay1 (k6_pay4 (iblk6 V c 0 t) (iblk6 V c 5 t) (iblk6 V c 6 t) (iblk6 V c 7 t)) (iblk6 V c 8 t) (ix2 p q)
      = branch (V c (Pipeline.arrRef spec6 0)) (V c (Pipeline.arrRef spec6 5)) (V c (Pipeline.arrRef spec6 6))
        (V c (Pipeline.arrRef spec6 7)) (V c (Pipeline.arrRef spec6 8)) (((cfg6.win 10).blk t).view.emb (ix2 p q)) := by
  obtain ⟨e0, e0c, eA, eAc, e9c, e9b, z1r, z1c, z2r, z2c, z3r, z3c, z4r, z4c, z5r, z5c, z6r, z6c, z7r, z7c, z8r, z8c⟩ := idx_facts t
  rw [pay_adv_apply]
  refine branch_of_block _ _ _ _ _ _ _ _ _ _ _ p q (fun k1 => ?_) (fun k1 k2 => blk5_apply V c t k1 k2)
    (fun k2 => blk6_apply V c t 0 k2) (fun k2 => blk7_apply V c t k2 0) (blk8_apply V c t 0 0)
  show V c (Pipeline.arrRef spec6 0) (((cfg6.win 0).blk t).view.emb (ix2 p k1)) = _
  refine congrArg _ (funext fun d => Fin.ext ?_)
  match d with
  | ⟨0, _⟩ => show win6_0.index t (0 : Fin 2) * 10000 + 1 * p.val = win6_10.index t (0 : Fin 2) * 10000 + 1 * p.val; omega
  | ⟨1, _⟩ => show win6_0.index t (1 : Fin 2) * 64 + 1 * k1.val = k1.val; omega

/-- WHAT POINT `t` WRITES BACK to window 10's array is block `t` of `branch` of the input arrays as the region finds them. -/
theorem adv_flushed (V : (c : Dev nD) → (b : Ref sig .tc) → Buf (Elt Ideal) ((c : Thread nD τ).loc b)) (c : Dev nD) (t : Fin cfg6.N) :
    (dat6 (F := Ideal) V c).flushed 10 t = ((cfg6.win 10).blk t).view.read (Elt Ideal)
      (branch (V c (Pipeline.arrRef spec6 0)) (V c (Pipeline.arrRef spec6 5)) (V c (Pipeline.arrRef spec6 6))
        (V c (Pipeline.arrRef spec6 7)) (V c (Pipeline.arrRef spec6 8))) := by
  show (cfg6.win 10).cut (grid6.coords t) ((dat6 V c).after 10 t) = _
  rw [after6_10]
  unfold out6_10
  rw [View.canon_unit_zero hz]
  simp only [View.ld_unit_zero (S := S10000x64) hz, View.ld_unit_zero (S := S64x32) hz, View.ld_unit_zero (S := S1x32) hz,
    View.ld_unit_zero (S := S32x1) hz, View.ld_unit_zero (S := S1x1) hz]
  funext j
  obtain ⟨p, q, rfl⟩ : ∃ (p : Fin 10000) (q : Fin 1), j = ix2 p q := ⟨j 0, j 1, eq_ix2 j⟩
  exact adv_point V c t p q

/-- An index of the array is in point `t`'s block iff each coordinate is in the block's range on its axis. -/
theorem adv_mem_blk (t : Fin cfg6.N) (i : S100000x1.Idx) :
    i ∈ ((cfg6.win 10).blk t).view.set ↔ ∀ a : Fin 2, win6_10.index t a * S10000x1.size a ≤ (i a).val ∧ (i a).val < win6_10.index t a * S10000x1.size a + S10000x1.size a := by
  show i ∈ ((View.whole main_v85_1).slice (win6_10.rect t)).set ↔ _
  rw [View.set_slice_whole, Rect.mem_set_unit]
  exact Iff.rfl

/-- Every row of the array is in the block of the point `row / 10000`. -/
theorem adv_cover (i : S100000x1.Idx) :
    ∃ t : Fin cfg6.N, (cfg6.win 10).flush t = true ∧ i ∈ ((cfg6.win 10).blk t).view.set := by
  have hi0 : (i 0).val < 100000 := (i 0).isLt
  have hi1 : (i 1).val < 1 := (i 1).isLt
  obtain ⟨t, ht⟩ := idx_onto ⟨(i 0).val / 10000, by omega⟩
  obtain ⟨e0, e0c, eA, eAc, e9c, e9b, z1r, z1c, z2r, z2c, z3r, z3c, z4r, z4c, z5r, z5c, z6r, z6c, z7r, z7c, z8r, z8c⟩ := idx_facts t
  have q0 : win6_9.index t (0 : Fin 2) = (i 0).val / 10000 := ht
  refine ⟨t, flush6_10 t, ?_⟩
  rw [adv_mem_blk]
  intro a
  match a with
  | ⟨0, _⟩ => show win6_10.index t (0 : Fin 2) * 10000 ≤ (i 0).val ∧ (i 0).val < win6_10.index t (0 : Fin 2) * 10000 + 10000; omega
  | ⟨1, _⟩ => show win6_10.index t (1 : Fin 2) * 1 ≤ (i 1).val ∧ (i 1).val < win6_10.index t (1 : Fin 2) * 1 + 1; omega

/-- THE ARRAY after the region: `branch` of the input arrays. -/
theorem adv_array (V : (c : Dev nD) → (b : Ref sig .tc) → Buf (Elt Ideal) ((c : Thread nD τ).loc b)) (c : Dev nD) :
    (dat6 (F := Ideal) V c).arrAt 10 cfg6.N
      = branch (V c (Pipeline.arrRef spec6 0)) (V c (Pipeline.arrRef spec6 5)) (V c (Pipeline.arrRef spec6 6))
        (V c (Pipeline.arrRef spec6 7)) (V c (Pipeline.arrRef spec6 8)) :=
  (dat6 (F := Ideal) V c).arrAt_eq_of_cover 10 _ (fun t _ => adv_flushed V c t) adv_cover

end Cert.KernelIdeal.Head

end
-- ==== Proof.HeadRef.lean ====
/- The reference's two heads are the same function `branch` of the shared hidden features: each stage of the
   reference read at an index, the composed index functions identified with the coordinates. -/
import proofs.«172456_j42700564856884_1_alg».proof.Proof.Gen.ReferenceIdeal.Read
import proofs.«172456_j42700564856884_1_alg».proof.Proof.HeadBlocks

noncomputable section

open Idealize.ShloMosaic Idealize.ShloMosaic.TcCoe Idealize.SL.Sem

namespace Cert.ReferenceIdeal.HeadRef

open Cert.ReferenceIdeal Cert.ReferenceIdeal.Read Idealize.ShloMosaic.ValueIdx
open scoped BigOperators

/-- The first head of the reference is `branch` of the hidden features, the first group of weights, and any bias row and bias that read as the reference's bias vectors. -/
theorem ref_value {x0 : (⟨S100000x128, .f32⟩ : BufTy).Contents (Elt Ideal)} {x1 : (⟨S2x1600000, .i32⟩ : BufTy).Contents (Elt Ideal)} {x2 : (⟨S1600000, .f32⟩ : BufTy).Contents (Elt Ideal)} {x3 : (⟨S128x128, .f32⟩ : BufTy).Contents (Elt Ideal)} {x4 : (⟨S128, .f32⟩ : BufTy).Contents (Elt Ideal)} {x5 : (⟨S128x128, .f32⟩ : BufTy).Contents (Elt Ideal)} {x6 : (⟨S128, .f32⟩ : BufTy).Contents (Elt Ideal)} {x7 : (⟨S128x64, .f32⟩ : BufTy).Contents (Elt Ideal)} {x8 : (⟨S64, .f32⟩ : BufTy).Contents (Elt Ideal)} {x9 : (⟨S64x32, .f32⟩ : BufTy).Contents (Elt Ideal)} {x10 : (⟨S32, .f32⟩ : BufTy).Contents (Elt Ideal)} {x11 : (⟨S32x1, .f32⟩ : BufTy).Contents (Elt Ideal)} {x12 : (⟨S1, .f32⟩ : BufTy).Contents (Elt Ideal)}
    (b1' : Cert.KernelIdeal.S1x32.Idx → EReal) (b2' : Cert.KernelIdeal.S1x1.Idx → EReal)
    (hb1 : ∀ k : Fin 32, b1' (ix2 (0 : Fin 1) k) = x10 (ix1 k)) (hb2 : b2' (ix2 (0 : Fin 1) (0 : Fin 1)) = x12 (ix1 (0 : Fin 1))) :
    val_main_v95 (F := Ideal) x0 x1 x2 x3 x4 x5 x6 x7 x8 x9 x10 x11 x12
      = Cert.KernelIdeal.Head.branch (val_main_v86 (F := Ideal) x0 x1 x2 x3 x4 x5 x6 x7 x8) x9 b1' x11 b2' := by
  funext i
  have hi1 : (i 1).val < 1 := (i 1).isLt
  rw [val_main_v95_apply, val_main_v94_apply, val_main_v93_apply, val_main_v92_apply]
  unfold Cert.KernelIdeal.Head.branch
  have e5 : idx_main_v93 (idx_main_v94 i) = ix1 (0 : Fin 1) :=
    funext fun a => Fin.ext (by match a with | ⟨0, _⟩ => rfl)
  rw [e5, ← hb2, Ideal.addf_def]
  refine congrArg (· + b2' (ix2 (0 : Fin 1) (0 : Fin 1))) (Finset.sum_congr rfl fun k _ => ?_)
  have e4 : ridx_main_v92 i k = ix2 k (0 : Fin 1) :=
    funext fun a => Fin.ext (by match a with | ⟨0, _⟩ => rfl | ⟨1, _⟩ => show (i 1).val = 0; omega)
  have e3 : idx_main_v88 (idx_main_v89 (lidx_main_v92 i k)) = ix1 k :=
    funext fun a => Fin.ext (by match a with | ⟨0, _⟩ => rfl)
  rw [e4, val_main_v91_apply, val_main_v90_apply, val_main_v89_apply, val_main_v88_apply,
    val_main_v87_apply, val_main_call4_v0_apply, val_main_call4_cst_apply, e3, ← hb1 k,
    Ideal.maximumf_def, Ideal.addf_def, Ideal.ofBits_def]
  refine congrArg (fun s => max (s + b1' (ix2 (0 : Fin 1) k)) (Ideal.ofBits .f32 0x00000000#32) * x11 (ix2 k (0 : Fin 1)))
    (Finset.sum_congr rfl fun k' _ => ?_)
  have e1 : lidx_main_v87 (lidx_main_v92 i k) k' = ix2 (⟨(i 0).val, (i 0).isLt⟩ : Fin 100000) k' :=
    funext fun a => Fin.ext (by match a with | ⟨0, _⟩ => rfl | ⟨1, _⟩ => rfl)
  have e2 : ridx_main_v87 (lidx_main_v92 i k) k' = ix2 k' k :=
    funext fun a => Fin.ext (by match a with | ⟨0, _⟩ => rfl | ⟨1, _⟩ => rfl)
  rw [e1, e2]

/-- The second head of the reference is `branch` of the same hidden features and the second group of weights. -/
theorem ref_adv {x0 : (⟨S100000x128, .f32⟩ : BufTy).Contents (Elt Ideal)} {x1 : (⟨S2x1600000, .i32⟩ : BufTy).Contents (Elt Ideal)} {x2 : (⟨S1600000, .f32⟩ : BufTy).Contents (Elt Ideal)} {x3 : (⟨S128x128, .f32⟩ : BufTy).Contents (Elt Ideal)} {x4 : (⟨S128, .f32⟩ : BufTy).Contents (Elt Ideal)} {x5 : (⟨S128x128, .f32⟩ : BufTy).Contents (Elt Ideal)} {x6 : (⟨S128, .f32⟩ : BufTy).Contents (Elt Ideal)} {x7 : (⟨S128x64, .f32⟩ : BufTy).Contents (Elt Ideal)} {x8 : (⟨S64, .f32⟩ : BufTy).Contents (Elt Ideal)} {x13 : (⟨S64x32, .f32⟩ : BufTy).Contents (Elt Ideal)} {x14 : (⟨S32, .f32⟩ : BufTy).Contents (Elt Ideal)} {x15 : (⟨S32x1, .f32⟩ : BufTy).Contents (Elt Ideal)} {x16 : (⟨S1, .f32⟩ : BufTy).Contents (Elt Ideal)}
    (b1' : Cert.KernelIdeal.S1x32.Idx → EReal) (b2' : Cert.KernelIdeal.S1x1.Idx → EReal)
    (hb1 : ∀ k : Fin 32, b1' (ix2 (0 : Fin 1) k) = x14 (ix1 k)) (hb2 : b2' (ix2 (0 : Fin 1) (0 : Fin 1)) = x16 (ix1 (0 : Fin 1))) :
    val_main_v105 (F := Ideal) x0 x1 x2 x3 x4 x5 x6 x7 x8 x13 x14 x15 x16
      = Cert.KernelIdeal.Head.branch (val_main_v86 (F := Ideal) x0 x1 x2 x3 x4 x5 x6 x7 x8) x13 b1' x15 b2' := by
  funext i
  have hi1 : (i 1).val < 1 := (i 1).isLt
  rw [val_main_v105_apply, val_main_v104_apply, val_main_v103_apply, val_main_v102_apply]
  unfold Cert.KernelIdeal.Head.branch
  have e5 : idx_main_v103 (idx_main_v104 i) = ix1 (0 : Fin 1) :=
    funext fun a => Fin.ext (by match a with | ⟨0, _⟩ => rfl)
  rw [e5, ← hb2, Ideal.addf_def]
  refine congrArg (· + b2' (ix2 (0 : Fin 1) (0 : Fin 1))) (Finset.sum_congr rfl fun k _ => ?_)
  have e4 : ridx_main_v102 i k = ix2 k (0 : Fin 1) :=
    funext fun a => Fin.ext (by match a with | ⟨0, _⟩ => rfl | ⟨1, _⟩ => show (i 1).val = 0; omega)
  have e3 : idx_main_v98 (idx_main_v99 (lidx_main_v102 i k)) = ix1 k :=
    funext fun a => Fin.ext (by match a with | ⟨0, _⟩ => rfl)
  rw [e4, val_main_v101_apply, val_main_v100_apply, val_main_v99_apply, val_main_v98_apply,
    val_main_v97_apply, val_main_call5_v0_apply, val_main_call5_cst_apply, e3, ← hb1 k,
    Ideal.maximumf_def, Ideal.addf_def, Ideal.ofBits_def]
  refine congrArg (fun s => max (s + b1' (ix2 (0 : Fin 1) k)) (Ideal.ofBits .f32 0x00000000#32) * x15 (ix2 k (0 : Fin 1)))
    (Finset.sum_congr rfl fun k' _ => ?_)
  have e1 : lidx_main_v97 (lidx_main_v102 i k) k' = ix2 (⟨(i 0).val, (i 0).isLt⟩ : Fin 100000) k' :=
    funext fun a => Fin.ext (by match a with | ⟨0, _⟩ => rfl | ⟨1, _⟩ => rfl)
  have e2 : ridx_main_v97 (lidx_main_v102 i k) k' = ix2 k' k :=
    funext fun a => Fin.ext (by match a with | ⟨0, _⟩ => rfl | ⟨1, _⟩ => rfl)
  rw [e1, e2]

end Cert.ReferenceIdeal.HeadRef

end
-- ==== Proof.Fold.lean ====
/-
  The contents of the result buffer at the end of the idealized kernel's @main, traced back through its fifteen segments.
  Each boundary's contents is a fold of the segments before it.  A buffer a segment does not write keeps its contents
  across that segment (for a region: a buffer that is not one of its arrays, or one of its input arrays); a buffer a host
  stretch writes holds the stretch's operations of what the stretch read; a region's output array holds the dense
  function of its input arrays (the product, bias-and-relu, or the head's branch).  Composing these from the launch to
  the return, every buffer on the way holds the value the reference's corresponding operation has, and the result buffer
  holds the reference's result of the seventeen arguments' launch contents.
-/
import proofs.«172456_j42700564856884_1_alg».proof.Proof.Gen.KernelIdeal.Frame
import proofs.«172456_j42700564856884_1_alg».proof.Proof.Gen.ReferenceIdeal.Read
import proofs.«172456_j42700564856884_1_alg».proof.Proof.MatmulBlocks
import proofs.«172456_j42700564856884_1_alg».proof.Proof.Stretches
import proofs.«172456_j42700564856884_1_alg».proof.Proof.BiasReluBlocks
import proofs.«172456_j42700564856884_1_alg».proof.Proof.BiasReluRef
import proofs.«172456_j42700564856884_1_alg».proof.Proof.HeadBlocks
import proofs.«172456_j42700564856884_1_alg».proof.Proof.HeadRef
import Idealize.ShloMosaic.Lib.StableHlo.Run
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)
open Cert.ReferenceIdeal.Read Cert.ReferenceIdeal.BiasReluRef Cert.ReferenceIdeal.HeadRef
open ValueIdx

/-- A buffer that no operation of a host stretch writes keeps its contents across the stretch. -/
macro "host_keeps" : tactic => `(tactic|
  (refine StableHlo.after_of_forall_not_mem _ _ (List.forall_iff_forall_mem.mp ?_)
   simp only [hostOps0, hostOps0_1, hostOps0_2, hostOps1, hostOps3, hostOps5, hostOps6, hostOps7, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-! ## The argument arrays are never written: read at any boundary they are the launch contents -/

theorem a0_0 : W0 m ρ c (Proc.devRef .tc main_arg0) = (m ((c : Thread nD τ).loc main_arg0)) := rfl
theorem a0_1 : W1 m ρ c (Proc.devRef .tc main_arg0) = (m ((c : Thread nD τ).loc main_arg0)) :=
  (by host_keeps : W1 m ρ c (Proc.devRef .tc main_arg0) = W0 m ρ c (Proc.devRef .tc main_arg0)).trans (a0_0 m ρ c)
theorem a0_2 : W2 m ρ c (Proc.devRef .tc main_arg0) = (m ((c : Thread nD τ).loc main_arg0)) :=
  (by host_keeps : W2 m ρ c (Proc.devRef .tc main_arg0) = W1 m ρ c (Proc.devRef .tc main_arg0)).trans (a0_1 m ρ c)
theorem a0_3 : W3 m ρ c (Proc.devRef .tc main_arg0) = (m ((c : Thread nD τ).loc main_arg0)) :=
  (by host_keeps : W3 m ρ c (Proc.devRef .tc main_arg0) = W2 m ρ c (Proc.devRef .tc main_arg0)).trans (a0_2 m ρ c)
theorem a3_0 : W0 m ρ c (Proc.devRef .tc main_arg3) = (m ((c : Thread nD τ).loc main_arg3)) := rfl
theorem a3_1 : W1 m ρ c (Proc.devRef .tc main_arg3) = (m ((c : Thread nD τ).loc main_arg3)) :=
  (by host_keeps : W1 m ρ c (Proc.devRef .tc main_arg3) = W0 m ρ c (Proc.devRef .tc main_arg3)).trans (a3_0 m ρ c)
theorem a3_2 : W2 m ρ c (Proc.devRef .tc main_arg3) = (m ((c : Thread nD τ).loc main_arg3)) :=
  (by host_keeps : W2 m ρ c (Proc.devRef .tc main_arg3) = W1 m ρ c (Proc.devRef .tc main_arg3)).trans (a3_1 m ρ c)
theorem a3_3 : W3 m ρ c (Proc.devRef .tc main_arg3) = (m ((c : Thread nD τ).loc main_arg3)) :=
  (by host_keeps : W3 m ρ c (Proc.devRef .tc main_arg3) = W2 m ρ c (Proc.devRef .tc main_arg3)).trans (a3_2 m ρ c)
theorem a4_0 : W0 m ρ c (Proc.devRef .tc main_arg4) = (m ((c : Thread nD τ).loc main_arg4)) := rfl
theorem a4_1 : W1 m ρ c (Proc.devRef .tc main_arg4) = (m ((c : Thread nD τ).loc main_arg4)) :=
  (by host_keeps : W1 m ρ c (Proc.devRef .tc main_arg4) = W0 m ρ c (Proc.devRef .tc main_arg4)).trans (a4_0 m ρ c)
theorem a4_2 : W2 m ρ c (Proc.devRef .tc main_arg4) = (m ((c : Thread nD τ).loc main_arg4)) :=
  (by host_keeps : W2 m ρ c (Proc.devRef .tc main_arg4) = W1 m ρ c (Proc.devRef .tc main_arg4)).trans (a4_1 m ρ c)
theorem a4_3 : W3 m ρ c (Proc.devRef .tc main_arg4) = (m ((c : Thread nD τ).loc main_arg4)) :=
  (by host_keeps : W3 m ρ c (Proc.devRef .tc main_arg4) = W2 m ρ c (Proc.devRef .tc main_arg4)).trans (a4_2 m ρ c)
theorem a4_4 : W4 m ρ c (Proc.devRef .tc main_arg4) = (m ((c : Thread nD τ).loc main_arg4)) :=
  (W4_of_ne m ρ c main_arg4 (by decide) : W4 m ρ c (Proc.devRef .tc main_arg4) = W3 m ρ c (Proc.devRef .tc main_arg4)).trans (a4_3 m ρ c)
theorem a5_0 : W0 m ρ c (Proc.devRef .tc main_arg5) = (m ((c : Thread nD τ).loc main_arg5)) := rfl
theorem a5_1 : W1 m ρ c (Proc.devRef .tc main_arg5) = (m ((c : Thread nD τ).loc main_arg5)) :=
  (by host_keeps : W1 m ρ c (Proc.devRef .tc main_arg5) = W0 m ρ c (Proc.devRef .tc main_arg5)).trans (a5_0 m ρ c)
theorem a5_2 : W2 m ρ c (Proc.devRef .tc main_arg5) = (m ((c : Thread nD τ).loc main_arg5)) :=
  (by host_keeps : W2 m ρ c (Proc.devRef .tc main_arg5) = W1 m ρ c (Proc.devRef .tc main_arg5)).trans (a5_1 m ρ c)
theorem a5_3 : W3 m ρ c (Proc.devRef .tc main_arg5) = (m ((c : Thread nD τ).loc main_arg5)) :=
  (by host_keeps : W3 m ρ c (Proc.devRef .tc main_arg5) = W2 m ρ c (Proc.devRef .tc main_arg5)).trans (a5_2 m ρ c)
theorem a5_4 : W4 m ρ c (Proc.devRef .tc main_arg5) = (m ((c : Thread nD τ).loc main_arg5)) :=
  (W4_of_ne m ρ c main_arg5 (by decide) : W4 m ρ c (Proc.devRef .tc main_arg5) = W3 m ρ c (Proc.devRef .tc main_arg5)).trans (a5_3 m ρ c)
theorem a5_5 : W5 m ρ c (Proc.devRef .tc main_arg5) = (m ((c : Thread nD τ).loc main_arg5)) :=
  (by host_keeps : W5 m ρ c (Proc.devRef .tc main_arg5) = W4 m ρ c (Proc.devRef .tc main_arg5)).trans (a5_4 m ρ c)
theorem a5_6 : W6 m ρ c (Proc.devRef .tc main_arg5) = (m ((c : Thread nD τ).loc main_arg5)) :=
  (W6_of_ne m ρ c main_arg5 (by decide) : W6 m ρ c (Proc.devRef .tc main_arg5) = W5 m ρ c (Proc.devRef .tc main_arg5)).trans (a5_5 m ρ c)
theorem a6_0 : W0 m ρ c (Proc.devRef .tc main_arg6) = (m ((c : Thread nD τ).loc main_arg6)) := rfl
theorem a6_1 : W1 m ρ c (Proc.devRef .tc main_arg6) = (m ((c : Thread nD τ).loc main_arg6)) :=
  (by host_keeps : W1 m ρ c (Proc.devRef .tc main_arg6) = W0 m ρ c (Proc.devRef .tc main_arg6)).trans (a6_0 m ρ c)
theorem a6_2 : W2 m ρ c (Proc.devRef .tc main_arg6) = (m ((c : Thread nD τ).loc main_arg6)) :=
  (by host_keeps : W2 m ρ c (Proc.devRef .tc main_arg6) = W1 m ρ c (Proc.devRef .tc main_arg6)).trans (a6_1 m ρ c)
theorem a6_3 : W3 m ρ c (Proc.devRef .tc main_arg6) = (m ((c : Thread nD τ).loc main_arg6)) :=
  (by host_keeps : W3 m ρ c (Proc.devRef .tc main_arg6) = W2 m ρ c (Proc.devRef .tc main_arg6)).trans (a6_2 m ρ c)
theorem a6_4 : W4 m ρ c (Proc.devRef .tc main_arg6) = (m ((c : Thread nD τ).loc main_arg6)) :=
  (W4_of_ne m ρ c main_arg6 (by decide) : W4 m ρ c (Proc.devRef .tc main_arg6) = W3 m ρ c (Proc.devRef .tc main_arg6)).trans (a6_3 m ρ c)
theorem a6_5 : W5 m ρ c (Proc.devRef .tc main_arg6) = (m ((c : Thread nD τ).loc main_arg6)) :=
  (by host_keeps : W5 m ρ c (Proc.devRef .tc main_arg6) = W4 m ρ c (Proc.devRef .tc main_arg6)).trans (a6_4 m ρ c)
theorem a6_6 : W6 m ρ c (Proc.devRef .tc main_arg6) = (m ((c : Thread nD τ).loc main_arg6)) :=
  (W6_of_ne m ρ c main_arg6 (by decide) : W6 m ρ c (Proc.devRef .tc main_arg6) = W5 m ρ c (Proc.devRef .tc main_arg6)).trans (a6_5 m ρ c)
theorem a6_7 : W7 m ρ c (Proc.devRef .tc main_arg6) = (m ((c : Thread nD τ).loc main_arg6)) :=
  (W7_of_ne m ρ c main_arg6 (by decide) : W7 m ρ c (Proc.devRef .tc main_arg6) = W6 m ρ c (Proc.devRef .tc main_arg6)).trans (a6_6 m ρ c)
theorem a7_0 : W0 m ρ c (Proc.devRef .tc main_arg7) = (m ((c : Thread nD τ).loc main_arg7)) := rfl
theorem a7_1 : W1 m ρ c (Proc.devRef .tc main_arg7) = (m ((c : Thread nD τ).loc main_arg7)) :=
  (by host_keeps : W1 m ρ c (Proc.devRef .tc main_arg7) = W0 m ρ c (Proc.devRef .tc main_arg7)).trans (a7_0 m ρ c)
theorem a7_2 : W2 m ρ c (Proc.devRef .tc main_arg7) = (m ((c : Thread nD τ).loc main_arg7)) :=
  (by host_keeps : W2 m ρ c (Proc.devRef .tc main_arg7) = W1 m ρ c (Proc.devRef .tc main_arg7)).trans (a7_1 m ρ c)
theorem a7_3 : W3 m ρ c (Proc.devRef .tc main_arg7) = (m ((c : Thread nD τ).loc main_arg7)) :=
  (by host_keeps : W3 m ρ c (Proc.devRef .tc main_arg7) = W2 m ρ c (Proc.devRef .tc main_arg7)).trans (a7_2 m ρ c)
theorem a7_4 : W4 m ρ c (Proc.devRef .tc main_arg7) = (m ((c : Thread nD τ).loc main_arg7)) :=
  (W4_of_ne m ρ c main_arg7 (by decide) : W4 m ρ c (Proc.devRef .tc main_arg7) = W3 m ρ c (Proc.devRef .tc main_arg7)).trans (a7_3 m ρ c)
theorem a7_5 : W5 m ρ c (Proc.devRef .tc main_arg7) = (m ((c : Thread nD τ).loc main_arg7)) :=
  (by host_keeps : W5 m ρ c (Proc.devRef .tc main_arg7) = W4 m ρ c (Proc.devRef .tc main_arg7)).trans (a7_4 m ρ c)
theorem a7_6 : W6 m ρ c (Proc.devRef .tc main_arg7) = (m ((c : Thread nD τ).loc main_arg7)) :=
  (W6_of_ne m ρ c main_arg7 (by decide) : W6 m ρ c (Proc.devRef .tc main_arg7) = W5 m ρ c (Proc.devRef .tc main_arg7)).trans (a7_5 m ρ c)
theorem a7_7 : W7 m ρ c (Proc.devRef .tc main_arg7) = (m ((c : Thread nD τ).loc main_arg7)) :=
  (W7_of_ne m ρ c main_arg7 (by decide) : W7 m ρ c (Proc.devRef .tc main_arg7) = W6 m ρ c (Proc.devRef .tc main_arg7)).trans (a7_6 m ρ c)
theorem a7_8 : W8 m ρ c (Proc.devRef .tc main_arg7) = (m ((c : Thread nD τ).loc main_arg7)) :=
  (by host_keeps : W8 m ρ c (Proc.devRef .tc main_arg7) = W7 m ρ c (Proc.devRef .tc main_arg7)).trans (a7_7 m ρ c)
theorem a7_9 : W9 m ρ c (Proc.devRef .tc main_arg7) = (m ((c : Thread nD τ).loc main_arg7)) :=
  (W9_of_ne m ρ c main_arg7 (by decide) : W9 m ρ c (Proc.devRef .tc main_arg7) = W8 m ρ c (Proc.devRef .tc main_arg7)).trans (a7_8 m ρ c)
theorem a8_0 : W0 m ρ c (Proc.devRef .tc main_arg8) = (m ((c : Thread nD τ).loc main_arg8)) := rfl
theorem a8_1 : W1 m ρ c (Proc.devRef .tc main_arg8) = (m ((c : Thread nD τ).loc main_arg8)) :=
  (by host_keeps : W1 m ρ c (Proc.devRef .tc main_arg8) = W0 m ρ c (Proc.devRef .tc main_arg8)).trans (a8_0 m ρ c)
theorem a8_2 : W2 m ρ c (Proc.devRef .tc main_arg8) = (m ((c : Thread nD τ).loc main_arg8)) :=
  (by host_keeps : W2 m ρ c (Proc.devRef .tc main_arg8) = W1 m ρ c (Proc.devRef .tc main_arg8)).trans (a8_1 m ρ c)
theorem a8_3 : W3 m ρ c (Proc.devRef .tc main_arg8) = (m ((c : Thread nD τ).loc main_arg8)) :=
  (by host_keeps : W3 m ρ c (Proc.devRef .tc main_arg8) = W2 m ρ c (Proc.devRef .tc main_arg8)).trans (a8_2 m ρ c)
theorem a8_4 : W4 m ρ c (Proc.devRef .tc main_arg8) = (m ((c : Thread nD τ).loc main_arg8)) :=
  (W4_of_ne m ρ c main_arg8 (by decide) : W4 m ρ c (Proc.devRef .tc main_arg8) = W3 m ρ c (Proc.devRef .tc main_arg8)).trans (a8_3 m ρ c)
theorem a8_5 : W5 m ρ c (Proc.devRef .tc main_arg8) = (m ((c : Thread nD τ).loc main_arg8)) :=
  (by host_keeps : W5 m ρ c (Proc.devRef .tc main_arg8) = W4 m ρ c (Proc.devRef .tc main_arg8)).trans (a8_4 m ρ c)
theorem a8_6 : W6 m ρ c (Proc.devRef .tc main_arg8) = (m ((c : Thread nD τ).loc main_arg8)) :=
  (W6_of_ne m ρ c main_arg8 (by decide) : W6 m ρ c (Proc.devRef .tc main_arg8) = W5 m ρ c (Proc.devRef .tc main_arg8)).trans (a8_5 m ρ c)
theorem a8_7 : W7 m ρ c (Proc.devRef .tc main_arg8) = (m ((c : Thread nD τ).loc main_arg8)) :=
  (W7_of_ne m ρ c main_arg8 (by decide) : W7 m ρ c (Proc.devRef .tc main_arg8) = W6 m ρ c (Proc.devRef .tc main_arg8)).trans (a8_6 m ρ c)
theorem a8_8 : W8 m ρ c (Proc.devRef .tc main_arg8) = (m ((c : Thread nD τ).loc main_arg8)) :=
  (by host_keeps : W8 m ρ c (Proc.devRef .tc main_arg8) = W7 m ρ c (Proc.devRef .tc main_arg8)).trans (a8_7 m ρ c)
theorem a8_9 : W9 m ρ c (Proc.devRef .tc main_arg8) = (m ((c : Thread nD τ).loc main_arg8)) :=
  (W9_of_ne m ρ c main_arg8 (by decide) : W9 m ρ c (Proc.devRef .tc main_arg8) = W8 m ρ c (Proc.devRef .tc main_arg8)).trans (a8_8 m ρ c)
theorem a8_10 : W10 m ρ c (Proc.devRef .tc main_arg8) = (m ((c : Thread nD τ).loc main_arg8)) :=
  (W10_of_ne m ρ c main_arg8 (by decide) : W10 m ρ c (Proc.devRef .tc main_arg8) = W9 m ρ c (Proc.devRef .tc main_arg8)).trans (a8_9 m ρ c)
theorem a9_0 : W0 m ρ c (Proc.devRef .tc main_arg9) = (m ((c : Thread nD τ).loc main_arg9)) := rfl
theorem a9_1 : W1 m ρ c (Proc.devRef .tc main_arg9) = (m ((c : Thread nD τ).loc main_arg9)) :=
  (by host_keeps : W1 m ρ c (Proc.devRef .tc main_arg9) = W0 m ρ c (Proc.devRef .tc main_arg9)).trans (a9_0 m ρ c)
theorem a9_2 : W2 m ρ c (Proc.devRef .tc main_arg9) = (m ((c : Thread nD τ).loc main_arg9)) :=
  (by host_keeps : W2 m ρ c (Proc.devRef .tc main_arg9) = W1 m ρ c (Proc.devRef .tc main_arg9)).trans (a9_1 m ρ c)
theorem a9_3 : W3 m ρ c (Proc.devRef .tc main_arg9) = (m ((c : Thread nD τ).loc main_arg9)) :=
  (by host_keeps : W3 m ρ c (Proc.devRef .tc main_arg9) = W2 m ρ c (Proc.devRef .tc main_arg9)).trans (a9_2 m ρ c)
theorem a9_4 : W4 m ρ c (Proc.devRef .tc main_arg9) = (m ((c : Thread nD τ).loc main_arg9)) :=
  (W4_of_ne m ρ c main_arg9 (by decide) : W4 m ρ c (Proc.devRef .tc main_arg9) = W3 m ρ c (Proc.devRef .tc main_arg9)).trans (a9_3 m ρ c)
theorem a9_5 : W5 m ρ c (Proc.devRef .tc main_arg9) = (m ((c : Thread nD τ).loc main_arg9)) :=
  (by host_keeps : W5 m ρ c (Proc.devRef .tc main_arg9) = W4 m ρ c (Proc.devRef .tc main_arg9)).trans (a9_4 m ρ c)
theorem a9_6 : W6 m ρ c (Proc.devRef .tc main_arg9) = (m ((c : Thread nD τ).loc main_arg9)) :=
  (W6_of_ne m ρ c main_arg9 (by decide) : W6 m ρ c (Proc.devRef .tc main_arg9) = W5 m ρ c (Proc.devRef .tc main_arg9)).trans (a9_5 m ρ c)
theorem a9_7 : W7 m ρ c (Proc.devRef .tc main_arg9) = (m ((c : Thread nD τ).loc main_arg9)) :=
  (W7_of_ne m ρ c main_arg9 (by decide) : W7 m ρ c (Proc.devRef .tc main_arg9) = W6 m ρ c (Proc.devRef .tc main_arg9)).trans (a9_6 m ρ c)
theorem a9_8 : W8 m ρ c (Proc.devRef .tc main_arg9) = (m ((c : Thread nD τ).loc main_arg9)) :=
  (by host_keeps : W8 m ρ c (Proc.devRef .tc main_arg9) = W7 m ρ c (Proc.devRef .tc main_arg9)).trans (a9_7 m ρ c)
theorem a9_9 : W9 m ρ c (Proc.devRef .tc main_arg9) = (m ((c : Thread nD τ).loc main_arg9)) :=
  (W9_of_ne m ρ c main_arg9 (by decide) : W9 m ρ c (Proc.devRef .tc main_arg9) = W8 m ρ c (Proc.devRef .tc main_arg9)).trans (a9_8 m ρ c)
theorem a9_10 : W10 m ρ c (Proc.devRef .tc main_arg9) = (m ((c : Thread nD τ).loc main_arg9)) :=
  (W10_of_ne m ρ c main_arg9 (by decide) : W10 m ρ c (Proc.devRef .tc main_arg9) = W9 m ρ c (Proc.devRef .tc main_arg9)).trans (a9_9 m ρ c)
theorem a9_11 : W11 m ρ c (Proc.devRef .tc main_arg9) = (m ((c : Thread nD τ).loc main_arg9)) :=
  (by host_keeps : W11 m ρ c (Proc.devRef .tc main_arg9) = W10 m ρ c (Proc.devRef .tc main_arg9)).trans (a9_10 m ρ c)
theorem a9_12 : W12 m ρ c (Proc.devRef .tc main_arg9) = (m ((c : Thread nD τ).loc main_arg9)) :=
  (W12_of_ne m ρ c main_arg9 (by decide) : W12 m ρ c (Proc.devRef .tc main_arg9) = W11 m ρ c (Proc.devRef .tc main_arg9)).trans (a9_11 m ρ c)
theorem a9_13 : W13 m ρ c (Proc.devRef .tc main_arg9) = (m ((c : Thread nD τ).loc main_arg9)) :=
  (by host_keeps : W13 m ρ c (Proc.devRef .tc main_arg9) = W12 m ρ c (Proc.devRef .tc main_arg9)).trans (a9_12 m ρ c)
theorem a10_0 : W0 m ρ c (Proc.devRef .tc main_arg10) = (m ((c : Thread nD τ).loc main_arg10)) := rfl
theorem a10_1 : W1 m ρ c (Proc.devRef .tc main_arg10) = (m ((c : Thread nD τ).loc main_arg10)) :=
  (by host_keeps : W1 m ρ c (Proc.devRef .tc main_arg10) = W0 m ρ c (Proc.devRef .tc main_arg10)).trans (a10_0 m ρ c)
theorem a10_2 : W2 m ρ c (Proc.devRef .tc main_arg10) = (m ((c : Thread nD τ).loc main_arg10)) :=
  (by host_keeps : W2 m ρ c (Proc.devRef .tc main_arg10) = W1 m ρ c (Proc.devRef .tc main_arg10)).trans (a10_1 m ρ c)
theorem a10_3 : W3 m ρ c (Proc.devRef .tc main_arg10) = (m ((c : Thread nD τ).loc main_arg10)) :=
  (by host_keeps : W3 m ρ c (Proc.devRef .tc main_arg10) = W2 m ρ c (Proc.devRef .tc main_arg10)).trans (a10_2 m ρ c)
theorem a10_4 : W4 m ρ c (Proc.devRef .tc main_arg10) = (m ((c : Thread nD τ).loc main_arg10)) :=
  (W4_of_ne m ρ c main_arg10 (by decide) : W4 m ρ c (Proc.devRef .tc main_arg10) = W3 m ρ c (Proc.devRef .tc main_arg10)).trans (a10_3 m ρ c)
theorem a10_5 : W5 m ρ c (Proc.devRef .tc main_arg10) = (m ((c : Thread nD τ).loc main_arg10)) :=
  (by host_keeps : W5 m ρ c (Proc.devRef .tc main_arg10) = W4 m ρ c (Proc.devRef .tc main_arg10)).trans (a10_4 m ρ c)
theorem a10_6 : W6 m ρ c (Proc.devRef .tc main_arg10) = (m ((c : Thread nD τ).loc main_arg10)) :=
  (W6_of_ne m ρ c main_arg10 (by decide) : W6 m ρ c (Proc.devRef .tc main_arg10) = W5 m ρ c (Proc.devRef .tc main_arg10)).trans (a10_5 m ρ c)
theorem a10_7 : W7 m ρ c (Proc.devRef .tc main_arg10) = (m ((c : Thread nD τ).loc main_arg10)) :=
  (W7_of_ne m ρ c main_arg10 (by decide) : W7 m ρ c (Proc.devRef .tc main_arg10) = W6 m ρ c (Proc.devRef .tc main_arg10)).trans (a10_6 m ρ c)
theorem a10_8 : W8 m ρ c (Proc.devRef .tc main_arg10) = (m ((c : Thread nD τ).loc main_arg10)) :=
  (by host_keeps : W8 m ρ c (Proc.devRef .tc main_arg10) = W7 m ρ c (Proc.devRef .tc main_arg10)).trans (a10_7 m ρ c)
theorem a10_9 : W9 m ρ c (Proc.devRef .tc main_arg10) = (m ((c : Thread nD τ).loc main_arg10)) :=
  (W9_of_ne m ρ c main_arg10 (by decide) : W9 m ρ c (Proc.devRef .tc main_arg10) = W8 m ρ c (Proc.devRef .tc main_arg10)).trans (a10_8 m ρ c)
theorem a10_10 : W10 m ρ c (Proc.devRef .tc main_arg10) = (m ((c : Thread nD τ).loc main_arg10)) :=
  (W10_of_ne m ρ c main_arg10 (by decide) : W10 m ρ c (Proc.devRef .tc main_arg10) = W9 m ρ c (Proc.devRef .tc main_arg10)).trans (a10_9 m ρ c)
theorem a10_11 : W11 m ρ c (Proc.devRef .tc main_arg10) = (m ((c : Thread nD τ).loc main_arg10)) :=
  (by host_keeps : W11 m ρ c (Proc.devRef .tc main_arg10) = W10 m ρ c (Proc.devRef .tc main_arg10)).trans (a10_10 m ρ c)
theorem a10_12 : W12 m ρ c (Proc.devRef .tc main_arg10) = (m ((c : Thread nD τ).loc main_arg10)) :=
  (W12_of_ne m ρ c main_arg10 (by decide) : W12 m ρ c (Proc.devRef .tc main_arg10) = W11 m ρ c (Proc.devRef .tc main_arg10)).trans (a10_11 m ρ c)
theorem a11_0 : W0 m ρ c (Proc.devRef .tc main_arg11) = (m ((c : Thread nD τ).loc main_arg11)) := rfl
theorem a11_1 : W1 m ρ c (Proc.devRef .tc main_arg11) = (m ((c : Thread nD τ).loc main_arg11)) :=
  (by host_keeps : W1 m ρ c (Proc.devRef .tc main_arg11) = W0 m ρ c (Proc.devRef .tc main_arg11)).trans (a11_0 m ρ c)
theorem a11_2 : W2 m ρ c (Proc.devRef .tc main_arg11) = (m ((c : Thread nD τ).loc main_arg11)) :=
  (by host_keeps : W2 m ρ c (Proc.devRef .tc main_arg11) = W1 m ρ c (Proc.devRef .tc main_arg11)).trans (a11_1 m ρ c)
theorem a11_3 : W3 m ρ c (Proc.devRef .tc main_arg11) = (m ((c : Thread nD τ).loc main_arg11)) :=
  (by host_keeps : W3 m ρ c (Proc.devRef .tc main_arg11) = W2 m ρ c (Proc.devRef .tc main_arg11)).trans (a11_2 m ρ c)
theorem a11_4 : W4 m ρ c (Proc.devRef .tc main_arg11) = (m ((c : Thread nD τ).loc main_arg11)) :=
  (W4_of_ne m ρ c main_arg11 (by decide) : W4 m ρ c (Proc.devRef .tc main_arg11) = W3 m ρ c (Proc.devRef .tc main_arg11)).trans (a11_3 m ρ c)
theorem a11_5 : W5 m ρ c (Proc.devRef .tc main_arg11) = (m ((c : Thread nD τ).loc main_arg11)) :=
  (by host_keeps : W5 m ρ c (Proc.devRef .tc main_arg11) = W4 m ρ c (Proc.devRef .tc main_arg11)).trans (a11_4 m ρ c)
theorem a11_6 : W6 m ρ c (Proc.devRef .tc main_arg11) = (m ((c : Thread nD τ).loc main_arg11)) :=
  (W6_of_ne m ρ c main_arg11 (by decide) : W6 m ρ c (Proc.devRef .tc main_arg11) = W5 m ρ c (Proc.devRef .tc main_arg11)).trans (a11_5 m ρ c)
theorem a11_7 : W7 m ρ c (Proc.devRef .tc main_arg11) = (m ((c : Thread nD τ).loc main_arg11)) :=
  (W7_of_ne m ρ c main_arg11 (by decide) : W7 m ρ c (Proc.devRef .tc main_arg11) = W6 m ρ c (Proc.devRef .tc main_arg11)).trans (a11_6 m ρ c)
theorem a11_8 : W8 m ρ c (Proc.devRef .tc main_arg11) = (m ((c : Thread nD τ).loc main_arg11)) :=
  (by host_keeps : W8 m ρ c (Proc.devRef .tc main_arg11) = W7 m ρ c (Proc.devRef .tc main_arg11)).trans (a11_7 m ρ c)
theorem a11_9 : W9 m ρ c (Proc.devRef .tc main_arg11) = (m ((c : Thread nD τ).loc main_arg11)) :=
  (W9_of_ne m ρ c main_arg11 (by decide) : W9 m ρ c (Proc.devRef .tc main_arg11) = W8 m ρ c (Proc.devRef .tc main_arg11)).trans (a11_8 m ρ c)
theorem a11_10 : W10 m ρ c (Proc.devRef .tc main_arg11) = (m ((c : Thread nD τ).loc main_arg11)) :=
  (W10_of_ne m ρ c main_arg11 (by decide) : W10 m ρ c (Proc.devRef .tc main_arg11) = W9 m ρ c (Proc.devRef .tc main_arg11)).trans (a11_9 m ρ c)
theorem a11_11 : W11 m ρ c (Proc.devRef .tc main_arg11) = (m ((c : Thread nD τ).loc main_arg11)) :=
  (by host_keeps : W11 m ρ c (Proc.devRef .tc main_arg11) = W10 m ρ c (Proc.devRef .tc main_arg11)).trans (a11_10 m ρ c)
theorem a11_12 : W12 m ρ c (Proc.devRef .tc main_arg11) = (m ((c : Thread nD τ).loc main_arg11)) :=
  (W12_of_ne m ρ c main_arg11 (by decide) : W12 m ρ c (Proc.devRef .tc main_arg11) = W11 m ρ c (Proc.devRef .tc main_arg11)).trans (a11_11 m ρ c)
theorem a11_13 : W13 m ρ c (Proc.devRef .tc main_arg11) = (m ((c : Thread nD τ).loc main_arg11)) :=
  (by host_keeps : W13 m ρ c (Proc.devRef .tc main_arg11) = W12 m ρ c (Proc.devRef .tc main_arg11)).trans (a11_12 m ρ c)
theorem a12_0 : W0 m ρ c (Proc.devRef .tc main_arg12) = (m ((c : Thread nD τ).loc main_arg12)) := rfl
theorem a12_1 : W1 m ρ c (Proc.devRef .tc main_arg12) = (m ((c : Thread nD τ).loc main_arg12)) :=
  (by host_keeps : W1 m ρ c (Proc.devRef .tc main_arg12) = W0 m ρ c (Proc.devRef .tc main_arg12)).trans (a12_0 m ρ c)
theorem a12_2 : W2 m ρ c (Proc.devRef .tc main_arg12) = (m ((c : Thread nD τ).loc main_arg12)) :=
  (by host_keeps : W2 m ρ c (Proc.devRef .tc main_arg12) = W1 m ρ c (Proc.devRef .tc main_arg12)).trans (a12_1 m ρ c)
theorem a12_3 : W3 m ρ c (Proc.devRef .tc main_arg12) = (m ((c : Thread nD τ).loc main_arg12)) :=
  (by host_keeps : W3 m ρ c (Proc.devRef .tc main_arg12) = W2 m ρ c (Proc.devRef .tc main_arg12)).trans (a12_2 m ρ c)
theorem a12_4 : W4 m ρ c (Proc.devRef .tc main_arg12) = (m ((c : Thread nD τ).loc main_arg12)) :=
  (W4_of_ne m ρ c main_arg12 (by decide) : W4 m ρ c (Proc.devRef .tc main_arg12) = W3 m ρ c (Proc.devRef .tc main_arg12)).trans (a12_3 m ρ c)
theorem a12_5 : W5 m ρ c (Proc.devRef .tc main_arg12) = (m ((c : Thread nD τ).loc main_arg12)) :=
  (by host_keeps : W5 m ρ c (Proc.devRef .tc main_arg12) = W4 m ρ c (Proc.devRef .tc main_arg12)).trans (a12_4 m ρ c)
theorem a12_6 : W6 m ρ c (Proc.devRef .tc main_arg12) = (m ((c : Thread nD τ).loc main_arg12)) :=
  (W6_of_ne m ρ c main_arg12 (by decide) : W6 m ρ c (Proc.devRef .tc main_arg12) = W5 m ρ c (Proc.devRef .tc main_arg12)).trans (a12_5 m ρ c)
theorem a12_7 : W7 m ρ c (Proc.devRef .tc main_arg12) = (m ((c : Thread nD τ).loc main_arg12)) :=
  (W7_of_ne m ρ c main_arg12 (by decide) : W7 m ρ c (Proc.devRef .tc main_arg12) = W6 m ρ c (Proc.devRef .tc main_arg12)).trans (a12_6 m ρ c)
theorem a12_8 : W8 m ρ c (Proc.devRef .tc main_arg12) = (m ((c : Thread nD τ).loc main_arg12)) :=
  (by host_keeps : W8 m ρ c (Proc.devRef .tc main_arg12) = W7 m ρ c (Proc.devRef .tc main_arg12)).trans (a12_7 m ρ c)
theorem a12_9 : W9 m ρ c (Proc.devRef .tc main_arg12) = (m ((c : Thread nD τ).loc main_arg12)) :=
  (W9_of_ne m ρ c main_arg12 (by decide) : W9 m ρ c (Proc.devRef .tc main_arg12) = W8 m ρ c (Proc.devRef .tc main_arg12)).trans (a12_8 m ρ c)
theorem a12_10 : W10 m ρ c (Proc.devRef .tc main_arg12) = (m ((c : Thread nD τ).loc main_arg12)) :=
  (W10_of_ne m ρ c main_arg12 (by decide) : W10 m ρ c (Proc.devRef .tc main_arg12) = W9 m ρ c (Proc.devRef .tc main_arg12)).trans (a12_9 m ρ c)
theorem a12_11 : W11 m ρ c (Proc.devRef .tc main_arg12) = (m ((c : Thread nD τ).loc main_arg12)) :=
  (by host_keeps : W11 m ρ c (Proc.devRef .tc main_arg12) = W10 m ρ c (Proc.devRef .tc main_arg12)).trans (a12_10 m ρ c)
theorem a12_12 : W12 m ρ c (Proc.devRef .tc main_arg12) = (m ((c : Thread nD τ).loc main_arg12)) :=
  (W12_of_ne m ρ c main_arg12 (by decide) : W12 m ρ c (Proc.devRef .tc main_arg12) = W11 m ρ c (Proc.devRef .tc main_arg12)).trans (a12_11 m ρ c)
theorem a13_0 : W0 m ρ c (Proc.devRef .tc main_arg13) = (m ((c : Thread nD τ).loc main_arg13)) := rfl
theorem a13_1 : W1 m ρ c (Proc.devRef .tc main_arg13) = (m ((c : Thread nD τ).loc main_arg13)) :=
  (by host_keeps : W1 m ρ c (Proc.devRef .tc main_arg13) = W0 m ρ c (Proc.devRef .tc main_arg13)).trans (a13_0 m ρ c)
theorem a13_2 : W2 m ρ c (Proc.devRef .tc main_arg13) = (m ((c : Thread nD τ).loc main_arg13)) :=
  (by host_keeps : W2 m ρ c (Proc.devRef .tc main_arg13) = W1 m ρ c (Proc.devRef .tc main_arg13)).trans (a13_1 m ρ c)
theorem a13_3 : W3 m ρ c (Proc.devRef .tc main_arg13) = (m ((c : Thread nD τ).loc main_arg13)) :=
  (by host_keeps : W3 m ρ c (Proc.devRef .tc main_arg13) = W2 m ρ c (Proc.devRef .tc main_arg13)).trans (a13_2 m ρ c)
theorem a13_4 : W4 m ρ c (Proc.devRef .tc main_arg13) = (m ((c : Thread nD τ).loc main_arg13)) :=
  (W4_of_ne m ρ c main_arg13 (by decide) : W4 m ρ c (Proc.devRef .tc main_arg13) = W3 m ρ c (Proc.devRef .tc main_arg13)).trans (a13_3 m ρ c)
theorem a13_5 : W5 m ρ c (Proc.devRef .tc main_arg13) = (m ((c : Thread nD τ).loc main_arg13)) :=
  (by host_keeps : W5 m ρ c (Proc.devRef .tc main_arg13) = W4 m ρ c (Proc.devRef .tc main_arg13)).trans (a13_4 m ρ c)
theorem a13_6 : W6 m ρ c (Proc.devRef .tc main_arg13) = (m ((c : Thread nD τ).loc main_arg13)) :=
  (W6_of_ne m ρ c main_arg13 (by decide) : W6 m ρ c (Proc.devRef .tc main_arg13) = W5 m ρ c (Proc.devRef .tc main_arg13)).trans (a13_5 m ρ c)
theorem a13_7 : W7 m ρ c (Proc.devRef .tc main_arg13) = (m ((c : Thread nD τ).loc main_arg13)) :=
  (W7_of_ne m ρ c main_arg13 (by decide) : W7 m ρ c (Proc.devRef .tc main_arg13) = W6 m ρ c (Proc.devRef .tc main_arg13)).trans (a13_6 m ρ c)
theorem a13_8 : W8 m ρ c (Proc.devRef .tc main_arg13) = (m ((c : Thread nD τ).loc main_arg13)) :=
  (by host_keeps : W8 m ρ c (Proc.devRef .tc main_arg13) = W7 m ρ c (Proc.devRef .tc main_arg13)).trans (a13_7 m ρ c)
theorem a13_9 : W9 m ρ c (Proc.devRef .tc main_arg13) = (m ((c : Thread nD τ).loc main_arg13)) :=
  (W9_of_ne m ρ c main_arg13 (by decide) : W9 m ρ c (Proc.devRef .tc main_arg13) = W8 m ρ c (Proc.devRef .tc main_arg13)).trans (a13_8 m ρ c)
theorem a13_10 : W10 m ρ c (Proc.devRef .tc main_arg13) = (m ((c : Thread nD τ).loc main_arg13)) :=
  (W10_of_ne m ρ c main_arg13 (by decide) : W10 m ρ c (Proc.devRef .tc main_arg13) = W9 m ρ c (Proc.devRef .tc main_arg13)).trans (a13_9 m ρ c)
theorem a13_11 : W11 m ρ c (Proc.devRef .tc main_arg13) = (m ((c : Thread nD τ).loc main_arg13)) :=
  (by host_keeps : W11 m ρ c (Proc.devRef .tc main_arg13) = W10 m ρ c (Proc.devRef .tc main_arg13)).trans (a13_10 m ρ c)
theorem a13_12 : W12 m ρ c (Proc.devRef .tc main_arg13) = (m ((c : Thread nD τ).loc main_arg13)) :=
  (W12_of_ne m ρ c main_arg13 (by decide) : W12 m ρ c (Proc.devRef .tc main_arg13) = W11 m ρ c (Proc.devRef .tc main_arg13)).trans (a13_11 m ρ c)
theorem a13_13 : W13 m ρ c (Proc.devRef .tc main_arg13) = (m ((c : Thread nD τ).loc main_arg13)) :=
  (by host_keeps : W13 m ρ c (Proc.devRef .tc main_arg13) = W12 m ρ c (Proc.devRef .tc main_arg13)).trans (a13_12 m ρ c)
theorem a14_0 : W0 m ρ c (Proc.devRef .tc main_arg14) = (m ((c : Thread nD τ).loc main_arg14)) := rfl
theorem a14_1 : W1 m ρ c (Proc.devRef .tc main_arg14) = (m ((c : Thread nD τ).loc main_arg14)) :=
  (by host_keeps : W1 m ρ c (Proc.devRef .tc main_arg14) = W0 m ρ c (Proc.devRef .tc main_arg14)).trans (a14_0 m ρ c)
theorem a14_2 : W2 m ρ c (Proc.devRef .tc main_arg14) = (m ((c : Thread nD τ).loc main_arg14)) :=
  (by host_keeps : W2 m ρ c (Proc.devRef .tc main_arg14) = W1 m ρ c (Proc.devRef .tc main_arg14)).trans (a14_1 m ρ c)
theorem a14_3 : W3 m ρ c (Proc.devRef .tc main_arg14) = (m ((c : Thread nD τ).loc main_arg14)) :=
  (by host_keeps : W3 m ρ c (Proc.devRef .tc main_arg14) = W2 m ρ c (Proc.devRef .tc main_arg14)).trans (a14_2 m ρ c)
theorem a14_4 : W4 m ρ c (Proc.devRef .tc main_arg14) = (m ((c : Thread nD τ).loc main_arg14)) :=
  (W4_of_ne m ρ c main_arg14 (by decide) : W4 m ρ c (Proc.devRef .tc main_arg14) = W3 m ρ c (Proc.devRef .tc main_arg14)).trans (a14_3 m ρ c)
theorem a14_5 : W5 m ρ c (Proc.devRef .tc main_arg14) = (m ((c : Thread nD τ).loc main_arg14)) :=
  (by host_keeps : W5 m ρ c (Proc.devRef .tc main_arg14) = W4 m ρ c (Proc.devRef .tc main_arg14)).trans (a14_4 m ρ c)
theorem a14_6 : W6 m ρ c (Proc.devRef .tc main_arg14) = (m ((c : Thread nD τ).loc main_arg14)) :=
  (W6_of_ne m ρ c main_arg14 (by decide) : W6 m ρ c (Proc.devRef .tc main_arg14) = W5 m ρ c (Proc.devRef .tc main_arg14)).trans (a14_5 m ρ c)
theorem a14_7 : W7 m ρ c (Proc.devRef .tc main_arg14) = (m ((c : Thread nD τ).loc main_arg14)) :=
  (W7_of_ne m ρ c main_arg14 (by decide) : W7 m ρ c (Proc.devRef .tc main_arg14) = W6 m ρ c (Proc.devRef .tc main_arg14)).trans (a14_6 m ρ c)
theorem a14_8 : W8 m ρ c (Proc.devRef .tc main_arg14) = (m ((c : Thread nD τ).loc main_arg14)) :=
  (by host_keeps : W8 m ρ c (Proc.devRef .tc main_arg14) = W7 m ρ c (Proc.devRef .tc main_arg14)).trans (a14_7 m ρ c)
theorem a14_9 : W9 m ρ c (Proc.devRef .tc main_arg14) = (m ((c : Thread nD τ).loc main_arg14)) :=
  (W9_of_ne m ρ c main_arg14 (by decide) : W9 m ρ c (Proc.devRef .tc main_arg14) = W8 m ρ c (Proc.devRef .tc main_arg14)).trans (a14_8 m ρ c)
theorem a14_10 : W10 m ρ c (Proc.devRef .tc main_arg14) = (m ((c : Thread nD τ).loc main_arg14)) :=
  (W10_of_ne m ρ c main_arg14 (by decide) : W10 m ρ c (Proc.devRef .tc main_arg14) = W9 m ρ c (Proc.devRef .tc main_arg14)).trans (a14_9 m ρ c)
theorem a14_11 : W11 m ρ c (Proc.devRef .tc main_arg14) = (m ((c : Thread nD τ).loc main_arg14)) :=
  (by host_keeps : W11 m ρ c (Proc.devRef .tc main_arg14) = W10 m ρ c (Proc.devRef .tc main_arg14)).trans (a14_10 m ρ c)
theorem a14_12 : W12 m ρ c (Proc.devRef .tc main_arg14) = (m ((c : Thread nD τ).loc main_arg14)) :=
  (W12_of_ne m ρ c main_arg14 (by decide) : W12 m ρ c (Proc.devRef .tc main_arg14) = W11 m ρ c (Proc.devRef .tc main_arg14)).trans (a14_11 m ρ c)
theorem a15_0 : W0 m ρ c (Proc.devRef .tc main_arg15) = (m ((c : Thread nD τ).loc main_arg15)) := rfl
theorem a15_1 : W1 m ρ c (Proc.devRef .tc main_arg15) = (m ((c : Thread nD τ).loc main_arg15)) :=
  (by host_keeps : W1 m ρ c (Proc.devRef .tc main_arg15) = W0 m ρ c (Proc.devRef .tc main_arg15)).trans (a15_0 m ρ c)
theorem a15_2 : W2 m ρ c (Proc.devRef .tc main_arg15) = (m ((c : Thread nD τ).loc main_arg15)) :=
  (by host_keeps : W2 m ρ c (Proc.devRef .tc main_arg15) = W1 m ρ c (Proc.devRef .tc main_arg15)).trans (a15_1 m ρ c)
theorem a15_3 : W3 m ρ c (Proc.devRef .tc main_arg15) = (m ((c : Thread nD τ).loc main_arg15)) :=
  (by host_keeps : W3 m ρ c (Proc.devRef .tc main_arg15) = W2 m ρ c (Proc.devRef .tc main_arg15)).trans (a15_2 m ρ c)
theorem a15_4 : W4 m ρ c (Proc.devRef .tc main_arg15) = (m ((c : Thread nD τ).loc main_arg15)) :=
  (W4_of_ne m ρ c main_arg15 (by decide) : W4 m ρ c (Proc.devRef .tc main_arg15) = W3 m ρ c (Proc.devRef .tc main_arg15)).trans (a15_3 m ρ c)
theorem a15_5 : W5 m ρ c (Proc.devRef .tc main_arg15) = (m ((c : Thread nD τ).loc main_arg15)) :=
  (by host_keeps : W5 m ρ c (Proc.devRef .tc main_arg15) = W4 m ρ c (Proc.devRef .tc main_arg15)).trans (a15_4 m ρ c)
theorem a15_6 : W6 m ρ c (Proc.devRef .tc main_arg15) = (m ((c : Thread nD τ).loc main_arg15)) :=
  (W6_of_ne m ρ c main_arg15 (by decide) : W6 m ρ c (Proc.devRef .tc main_arg15) = W5 m ρ c (Proc.devRef .tc main_arg15)).trans (a15_5 m ρ c)
theorem a15_7 : W7 m ρ c (Proc.devRef .tc main_arg15) = (m ((c : Thread nD τ).loc main_arg15)) :=
  (W7_of_ne m ρ c main_arg15 (by decide) : W7 m ρ c (Proc.devRef .tc main_arg15) = W6 m ρ c (Proc.devRef .tc main_arg15)).trans (a15_6 m ρ c)
theorem a15_8 : W8 m ρ c (Proc.devRef .tc main_arg15) = (m ((c : Thread nD τ).loc main_arg15)) :=
  (by host_keeps : W8 m ρ c (Proc.devRef .tc main_arg15) = W7 m ρ c (Proc.devRef .tc main_arg15)).trans (a15_7 m ρ c)
theorem a15_9 : W9 m ρ c (Proc.devRef .tc main_arg15) = (m ((c : Thread nD τ).loc main_arg15)) :=
  (W9_of_ne m ρ c main_arg15 (by decide) : W9 m ρ c (Proc.devRef .tc main_arg15) = W8 m ρ c (Proc.devRef .tc main_arg15)).trans (a15_8 m ρ c)
theorem a15_10 : W10 m ρ c (Proc.devRef .tc main_arg15) = (m ((c : Thread nD τ).loc main_arg15)) :=
  (W10_of_ne m ρ c main_arg15 (by decide) : W10 m ρ c (Proc.devRef .tc main_arg15) = W9 m ρ c (Proc.devRef .tc main_arg15)).trans (a15_9 m ρ c)
theorem a15_11 : W11 m ρ c (Proc.devRef .tc main_arg15) = (m ((c : Thread nD τ).loc main_arg15)) :=
  (by host_keeps : W11 m ρ c (Proc.devRef .tc main_arg15) = W10 m ρ c (Proc.devRef .tc main_arg15)).trans (a15_10 m ρ c)
theorem a15_12 : W12 m ρ c (Proc.devRef .tc main_arg15) = (m ((c : Thread nD τ).loc main_arg15)) :=
  (W12_of_ne m ρ c main_arg15 (by decide) : W12 m ρ c (Proc.devRef .tc main_arg15) = W11 m ρ c (Proc.devRef .tc main_arg15)).trans (a15_11 m ρ c)
theorem a15_13 : W13 m ρ c (Proc.devRef .tc main_arg15) = (m ((c : Thread nD τ).loc main_arg15)) :=
  (by host_keeps : W13 m ρ c (Proc.devRef .tc main_arg15) = W12 m ρ c (Proc.devRef .tc main_arg15)).trans (a15_12 m ρ c)
theorem a16_0 : W0 m ρ c (Proc.devRef .tc main_arg16) = (m ((c : Thread nD τ).loc main_arg16)) := rfl
theorem a16_1 : W1 m ρ c (Proc.devRef .tc main_arg16) = (m ((c : Thread nD τ).loc main_arg16)) :=
  (by host_keeps : W1 m ρ c (Proc.devRef .tc main_arg16) = W0 m ρ c (Proc.devRef .tc main_arg16)).trans (a16_0 m ρ c)
theorem a16_2 : W2 m ρ c (Proc.devRef .tc main_arg16) = (m ((c : Thread nD τ).loc main_arg16)) :=
  (by host_keeps : W2 m ρ c (Proc.devRef .tc main_arg16) = W1 m ρ c (Proc.devRef .tc main_arg16)).trans (a16_1 m ρ c)
theorem a16_3 : W3 m ρ c (Proc.devRef .tc main_arg16) = (m ((c : Thread nD τ).loc main_arg16)) :=
  (by host_keeps : W3 m ρ c (Proc.devRef .tc main_arg16) = W2 m ρ c (Proc.devRef .tc main_arg16)).trans (a16_2 m ρ c)
theorem a16_4 : W4 m ρ c (Proc.devRef .tc main_arg16) = (m ((c : Thread nD τ).loc main_arg16)) :=
  (W4_of_ne m ρ c main_arg16 (by decide) : W4 m ρ c (Proc.devRef .tc main_arg16) = W3 m ρ c (Proc.devRef .tc main_arg16)).trans (a16_3 m ρ c)
theorem a16_5 : W5 m ρ c (Proc.devRef .tc main_arg16) = (m ((c : Thread nD τ).loc main_arg16)) :=
  (by host_keeps : W5 m ρ c (Proc.devRef .tc main_arg16) = W4 m ρ c (Proc.devRef .tc main_arg16)).trans (a16_4 m ρ c)
theorem a16_6 : W6 m ρ c (Proc.devRef .tc main_arg16) = (m ((c : Thread nD τ).loc main_arg16)) :=
  (W6_of_ne m ρ c main_arg16 (by decide) : W6 m ρ c (Proc.devRef .tc main_arg16) = W5 m ρ c (Proc.devRef .tc main_arg16)).trans (a16_5 m ρ c)
theorem a16_7 : W7 m ρ c (Proc.devRef .tc main_arg16) = (m ((c : Thread nD τ).loc main_arg16)) :=
  (W7_of_ne m ρ c main_arg16 (by decide) : W7 m ρ c (Proc.devRef .tc main_arg16) = W6 m ρ c (Proc.devRef .tc main_arg16)).trans (a16_6 m ρ c)
theorem a16_8 : W8 m ρ c (Proc.devRef .tc main_arg16) = (m ((c : Thread nD τ).loc main_arg16)) :=
  (by host_keeps : W8 m ρ c (Proc.devRef .tc main_arg16) = W7 m ρ c (Proc.devRef .tc main_arg16)).trans (a16_7 m ρ c)
theorem a16_9 : W9 m ρ c (Proc.devRef .tc main_arg16) = (m ((c : Thread nD τ).loc main_arg16)) :=
  (W9_of_ne m ρ c main_arg16 (by decide) : W9 m ρ c (Proc.devRef .tc main_arg16) = W8 m ρ c (Proc.devRef .tc main_arg16)).trans (a16_8 m ρ c)
theorem a16_10 : W10 m ρ c (Proc.devRef .tc main_arg16) = (m ((c : Thread nD τ).loc main_arg16)) :=
  (W10_of_ne m ρ c main_arg16 (by decide) : W10 m ρ c (Proc.devRef .tc main_arg16) = W9 m ρ c (Proc.devRef .tc main_arg16)).trans (a16_9 m ρ c)
theorem a16_11 : W11 m ρ c (Proc.devRef .tc main_arg16) = (m ((c : Thread nD τ).loc main_arg16)) :=
  (by host_keeps : W11 m ρ c (Proc.devRef .tc main_arg16) = W10 m ρ c (Proc.devRef .tc main_arg16)).trans (a16_10 m ρ c)
theorem a16_12 : W12 m ρ c (Proc.devRef .tc main_arg16) = (m ((c : Thread nD τ).loc main_arg16)) :=
  (W12_of_ne m ρ c main_arg16 (by decide) : W12 m ρ c (Proc.devRef .tc main_arg16) = W11 m ρ c (Proc.devRef .tc main_arg16)).trans (a16_11 m ρ c)

/-! ## The shared prefix: index lists, edge weights, normalising factors, edge coefficients -/

theorem v3_1 : W1 m ρ c (Proc.devRef .tc main_v3) = val_main_v3 (F := Ideal) (m ((c : Thread nD τ).loc main_arg1)) :=
  Stretch.s0_v3 (W0 m ρ c)
theorem v7_1 : W1 m ρ c (Proc.devRef .tc main_v7) = val_main_v7 (F := Ideal) (m ((c : Thread nD τ).loc main_arg1)) :=
  Stretch.s0_v7 (W0 m ρ c)
theorem v9_1 : W1 m ρ c (Proc.devRef .tc main_v9) = val_main_v9 (F := Ideal) (m ((c : Thread nD τ).loc main_arg2)) :=
  Stretch.s0_v9 (W0 m ρ c)
theorem v14_1 : W1 m ρ c (Proc.devRef .tc main_v14) = val_main_v14 (F := Ideal) (m ((c : Thread nD τ).loc main_arg1)) (m ((c : Thread nD τ).loc main_arg2)) :=
  Stretch.s0_v14 (W0 m ρ c)
theorem v15_1 : W1 m ρ c (Proc.devRef .tc main_v15) = val_main_v15 (F := Ideal) (m ((c : Thread nD τ).loc main_arg1)) (m ((c : Thread nD τ).loc main_arg2)) :=
  Stretch.s0_v15 (W0 m ρ c)
theorem cst2_1 : W1 m ρ c (Proc.devRef .tc main_cst_2) = val_main_cst_2 (F := Ideal) :=
  Stretch.s0_cst2 (W0 m ρ c)
theorem v16_2 : W2 m ρ c (Proc.devRef .tc main_v16) = val_main_v16 (F := Ideal) (m ((c : Thread nD τ).loc main_arg1)) (m ((c : Thread nD τ).loc main_arg2)) :=
  Stretch.s01_v16 (W1 m ρ c) _ _ (v14_1 m ρ c) (v15_1 m ρ c) (cst2_1 m ρ c)
theorem v3_2 : W2 m ρ c (Proc.devRef .tc main_v3) = val_main_v3 (F := Ideal) (m ((c : Thread nD τ).loc main_arg1)) :=
  (by host_keeps : W2 m ρ c (Proc.devRef .tc main_v3) = W1 m ρ c (Proc.devRef .tc main_v3)).trans (v3_1 m ρ c)
theorem v3_3 : W3 m ρ c (Proc.devRef .tc main_v3) = val_main_v3 (F := Ideal) (m ((c : Thread nD τ).loc main_arg1)) :=
  (by host_keeps : W3 m ρ c (Proc.devRef .tc main_v3) = W2 m ρ c (Proc.devRef .tc main_v3)).trans (v3_2 m ρ c)
theorem v3_4 : W4 m ρ c (Proc.devRef .tc main_v3) = val_main_v3 (F := Ideal) (m ((c : Thread nD τ).loc main_arg1)) :=
  (W4_of_ne m ρ c main_v3 (by decide) : W4 m ρ c (Proc.devRef .tc main_v3) = W3 m ρ c (Proc.devRef .tc main_v3)).trans (v3_3 m ρ c)
theorem v3_5 : W5 m ρ c (Proc.devRef .tc main_v3) = val_main_v3 (F := Ideal) (m ((c : Thread nD τ).loc main_arg1)) :=
  (by host_keeps : W5 m ρ c (Proc.devRef .tc main_v3) = W4 m ρ c (Proc.devRef .tc main_v3)).trans (v3_4 m ρ c)
theorem v3_6 : W6 m ρ c (Proc.devRef .tc main_v3) = val_main_v3 (F := Ideal) (m ((c : Thread nD τ).loc main_arg1)) :=
  (W6_of_ne m ρ c main_v3 (by decide) : W6 m ρ c (Proc.devRef .tc main_v3) = W5 m ρ c (Proc.devRef .tc main_v3)).trans (v3_5 m ρ c)
theorem v3_7 : W7 m ρ c (Proc.devRef .tc main_v3) = val_main_v3 (F := Ideal) (m ((c : Thread nD τ).loc main_arg1)) :=
  (W7_of_ne m ρ c main_v3 (by decide) : W7 m ρ c (Proc.devRef .tc main_v3) = W6 m ρ c (Proc.devRef .tc main_v3)).trans (v3_6 m ρ c)
theorem v3_8 : W8 m ρ c (Proc.devRef .tc main_v3) = val_main_v3 (F := Ideal) (m ((c : Thread nD τ).loc main_arg1)) :=
  (by host_keeps : W8 m ρ c (Proc.devRef .tc main_v3) = W7 m ρ c (Proc.devRef .tc main_v3)).trans (v3_7 m ρ c)
theorem v3_9 : W9 m ρ c (Proc.devRef .tc main_v3) = val_main_v3 (F := Ideal) (m ((c : Thread nD τ).loc main_arg1)) :=
  (W9_of_ne m ρ c main_v3 (by decide) : W9 m ρ c (Proc.devRef .tc main_v3) = W8 m ρ c (Proc.devRef .tc main_v3)).trans (v3_8 m ρ c)
theorem v3_10 : W10 m ρ c (Proc.devRef .tc main_v3) = val_main_v3 (F := Ideal) (m ((c : Thread nD τ).loc main_arg1)) :=
  (W10_of_ne m ρ c main_v3 (by decide) : W10 m ρ c (Proc.devRef .tc main_v3) = W9 m ρ c (Proc.devRef .tc main_v3)).trans (v3_9 m ρ c)
theorem v7_2 : W2 m ρ c (Proc.devRef .tc main_v7) = val_main_v7 (F := Ideal) (m ((c : Thread nD τ).loc main_arg1)) :=
  (by host_keeps : W2 m ρ c (Proc.devRef .tc main_v7) = W1 m ρ c (Proc.devRef .tc main_v7)).trans (v7_1 m ρ c)
theorem v7_3 : W3 m ρ c (Proc.devRef .tc main_v7) = val_main_v7 (F := Ideal) (m ((c : Thread nD τ).loc main_arg1)) :=
  (by host_keeps : W3 m ρ c (Proc.devRef .tc main_v7) = W2 m ρ c (Proc.devRef .tc main_v7)).trans (v7_2 m ρ c)
theorem v7_4 : W4 m ρ c (Proc.devRef .tc main_v7) = val_main_v7 (F := Ideal) (m ((c : Thread nD τ).loc main_arg1)) :=
  (W4_of_ne m ρ c main_v7 (by decide) : W4 m ρ c (Proc.devRef .tc main_v7) = W3 m ρ c (Proc.devRef .tc main_v7)).trans (v7_3 m ρ c)
theorem v7_5 : W5 m ρ c (Proc.devRef .tc main_v7) = val_main_v7 (F := Ideal) (m ((c : Thread nD τ).loc main_arg1)) :=
  (by host_keeps : W5 m ρ c (Proc.devRef .tc main_v7) = W4 m ρ c (Proc.devRef .tc main_v7)).trans (v7_4 m ρ c)
theorem v7_6 : W6 m ρ c (Proc.devRef .tc main_v7) = val_main_v7 (F := Ideal) (m ((c : Thread nD τ).loc main_arg1)) :=
  (W6_of_ne m ρ c main_v7 (by decide) : W6 m ρ c (Proc.devRef .tc main_v7) = W5 m ρ c (Proc.devRef .tc main_v7)).trans (v7_5 m ρ c)
theorem v7_7 : W7 m ρ c (Proc.devRef .tc main_v7) = val_main_v7 (F := Ideal) (m ((c : Thread nD τ).loc main_arg1)) :=
  (W7_of_ne m ρ c main_v7 (by decide) : W7 m ρ c (Proc.devRef .tc main_v7) = W6 m ρ c (Proc.devRef .tc main_v7)).trans (v7_6 m ρ c)
theorem v7_8 : W8 m ρ c (Proc.devRef .tc main_v7) = val_main_v7 (F := Ideal) (m ((c : Thread nD τ).loc main_arg1)) :=
  (by host_keeps : W8 m ρ c (Proc.devRef .tc main_v7) = W7 m ρ c (Proc.devRef .tc main_v7)).trans (v7_7 m ρ c)
theorem v7_9 : W9 m ρ c (Proc.devRef .tc main_v7) = val_main_v7 (F := Ideal) (m ((c : Thread nD τ).loc main_arg1)) :=
  (W9_of_ne m ρ c main_v7 (by decide) : W9 m ρ c (Proc.devRef .tc main_v7) = W8 m ρ c (Proc.devRef .tc main_v7)).trans (v7_8 m ρ c)
theorem v7_10 : W10 m ρ c (Proc.devRef .tc main_v7) = val_main_v7 (F := Ideal) (m ((c : Thread nD τ).loc main_arg1)) :=
  (W10_of_ne m ρ c main_v7 (by decide) : W10 m ρ c (Proc.devRef .tc main_v7) = W9 m ρ c (Proc.devRef .tc main_v7)).trans (v7_9 m ρ c)
theorem v9_2 : W2 m ρ c (Proc.devRef .tc main_v9) = val_main_v9 (F := Ideal) (m ((c : Thread nD τ).loc main_arg2)) :=
  (by host_keeps : W2 m ρ c (Proc.devRef .tc main_v9) = W1 m ρ c (Proc.devRef .tc main_v9)).trans (v9_1 m ρ c)
theorem v32_3 : W3 m ρ c (Proc.devRef .tc main_v32) = val_main_v32 (F := Ideal) (m ((c : Thread nD τ).loc main_arg1)) (m ((c : Thread nD τ).loc main_arg2)) :=
  Stretch.s02_v32 (W2 m ρ c) _ _ (v3_2 m ρ c) (v7_2 m ρ c) (v9_2 m ρ c) (v16_2 m ρ c)
theorem v32_4 : W4 m ρ c (Proc.devRef .tc main_v32) = val_main_v32 (F := Ideal) (m ((c : Thread nD τ).loc main_arg1)) (m ((c : Thread nD τ).loc main_arg2)) :=
  (W4_of_ne m ρ c main_v32 (by decide) : W4 m ρ c (Proc.devRef .tc main_v32) = W3 m ρ c (Proc.devRef .tc main_v32)).trans (v32_3 m ρ c)
theorem v32_5 : W5 m ρ c (Proc.devRef .tc main_v32) = val_main_v32 (F := Ideal) (m ((c : Thread nD τ).loc main_arg1)) (m ((c : Thread nD τ).loc main_arg2)) :=
  (by host_keeps : W5 m ρ c (Proc.devRef .tc main_v32) = W4 m ρ c (Proc.devRef .tc main_v32)).trans (v32_4 m ρ c)
theorem v32_6 : W6 m ρ c (Proc.devRef .tc main_v32) = val_main_v32 (F := Ideal) (m ((c : Thread nD τ).loc main_arg1)) (m ((c : Thread nD τ).loc main_arg2)) :=
  (W6_of_ne m ρ c main_v32 (by decide) : W6 m ρ c (Proc.devRef .tc main_v32) = W5 m ρ c (Proc.devRef .tc main_v32)).trans (v32_5 m ρ c)
theorem v32_7 : W7 m ρ c (Proc.devRef .tc main_v32) = val_main_v32 (F := Ideal) (m ((c : Thread nD τ).loc main_arg1)) (m ((c : Thread nD τ).loc main_arg2)) :=
  (W7_of_ne m ρ c main_v32 (by decide) : W7 m ρ c (Proc.devRef .tc main_v32) = W6 m ρ c (Proc.devRef .tc main_v32)).trans (v32_6 m ρ c)
theorem v32_8 : W8 m ρ c (Proc.devRef .tc main_v32) = val_main_v32 (F := Ideal) (m ((c : Thread nD τ).loc main_arg1)) (m ((c : Thread nD τ).loc main_arg2)) :=
  (by host_keeps : W8 m ρ c (Proc.devRef .tc main_v32) = W7 m ρ c (Proc.devRef .tc main_v32)).trans (v32_7 m ρ c)
theorem v32_9 : W9 m ρ c (Proc.devRef .tc main_v32) = val_main_v32 (F := Ideal) (m ((c : Thread nD τ).loc main_arg1)) (m ((c : Thread nD τ).loc main_arg2)) :=
  (W9_of_ne m ρ c main_v32 (by decide) : W9 m ρ c (Proc.devRef .tc main_v32) = W8 m ρ c (Proc.devRef .tc main_v32)).trans (v32_8 m ρ c)
theorem v32_10 : W10 m ρ c (Proc.devRef .tc main_v32) = val_main_v32 (F := Ideal) (m ((c : Thread nD τ).loc main_arg1)) (m ((c : Thread nD τ).loc main_arg2)) :=
  (W10_of_ne m ρ c main_v32 (by decide) : W10 m ρ c (Proc.devRef .tc main_v32) = W9 m ρ c (Proc.devRef .tc main_v32)).trans (v32_9 m ρ c)

/-! ## First layer -/

theorem v33_4 : W4 m ρ c (Proc.devRef .tc main_v33) = val_main_v33 (F := Ideal) (m ((c : Thread nD τ).loc main_arg0)) (m ((c : Thread nD τ).loc main_arg3)) := by
  refine (W4_arr m ρ c 2).trans ?_
  rw [Matmul.arr0 (V3 m ρ) c]
  show Matmul.mm128 (W3 m ρ c (Proc.devRef .tc main_arg0)) (W3 m ρ c (Proc.devRef .tc main_arg3)) = _
  rw [a0_3 m ρ c, a3_3 m ρ c]
  rfl
theorem v46_5 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) :=
  Stretch.s1_v46 (W4 m ρ c) _ _ _ _ (v32_4 m ρ c) (v3_4 m ρ c) (v7_4 m ρ c) (v33_4 m ρ c)
theorem b47_5 (k : Fin 128) : W5 m ρ c (Proc.devRef .tc main_v47) (ix2 (0 : Fin 1) k) = (m ((c : Thread nD τ).loc main_arg4)) (ix1 k) :=
  Stretch.s1_v47 (W4 m ρ c) _ (a4_4 m ρ c) k
theorem v48_6 : W6 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  rw [BiasRelu.arr1 (V5 m ρ) c]
  show BiasRelu.biasRelu128 (W5 m ρ c (Proc.devRef .tc main_v46)) (W5 m ρ c (Proc.devRef .tc main_v47)) = _
  rw [v46_5 m ρ c]
  exact (Cert.ReferenceIdeal.BiasReluRef.ref1 (W5 m ρ c (Proc.devRef .tc main_v47)) (b47_5 m ρ c)).symm
theorem v49_7 : W7 m ρ c (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [Matmul.arr2 (V6 m ρ) c]
  show Matmul.mm128 (W6 m ρ c (Proc.devRef .tc main_v48)) (W6 m ρ c (Proc.devRef .tc main_arg5)) = _
  rw [v48_6 m ρ c, a5_6 m ρ c]
  rfl

/-! ## Second layer -/

theorem v62_8 : W8 m ρ c (Proc.devRef .tc main_v62) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretch.s3_v62 (W7 m ρ c) _ _ _ _ _ _ (v32_7 m ρ c) (v3_7 m ρ c) (v7_7 m ρ c) (v49_7 m ρ c)
theorem b63_8 (k : Fin 128) : W8 m ρ c (Proc.devRef .tc main_v63) (ix2 (0 : Fin 1) k) = (m ((c : Thread nD τ).loc main_arg6)) (ix1 k) :=
  Stretch.s3_v63 (W7 m ρ c) _ (a6_7 m ρ c) k
theorem v64_9 : W9 m ρ c (Proc.devRef .tc main_v64) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  rw [BiasRelu.arr3 (V8 m ρ) c]
  show BiasRelu.biasRelu128 (W8 m ρ c (Proc.devRef .tc main_v62)) (W8 m ρ c (Proc.devRef .tc main_v63)) = _
  rw [v62_8 m ρ c]
  exact (Cert.ReferenceIdeal.BiasReluRef.ref2 (W8 m ρ c (Proc.devRef .tc main_v63)) (b63_8 m ρ c)).symm
theorem v65_10 : W10 m ρ c (Proc.devRef .tc main_v65) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  rw [Matmul.arr4 (V9 m ρ) c]
  show Matmul.mm64 (W9 m ρ c (Proc.devRef .tc main_v64)) (W9 m ρ c (Proc.devRef .tc main_arg7)) = _
  rw [v64_9 m ρ c, a7_9 m ρ c]
  rfl

/-! ## Third layer -/

theorem v78_11 : W11 m ρ c (Proc.devRef .tc main_v78) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch.s5_v78 (W10 m ρ c) _ _ _ _ _ _ _ _ (v32_10 m ρ c) (v3_10 m ρ c) (v7_10 m ρ c) (v65_10 m ρ c)
theorem b79_11 (k : Fin 64) : W11 m ρ c (Proc.devRef .tc main_v79) (ix2 (0 : Fin 1) k) = (m ((c : Thread nD τ).loc main_arg8)) (ix1 k) :=
  Stretch.s5_v79 (W10 m ρ c) _ (a8_10 m ρ c) k
theorem v80_12 : W12 m ρ c (Proc.devRef .tc main_v80) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  rw [BiasRelu.arr5 (V11 m ρ) c]
  show BiasRelu.biasRelu64 (W11 m ρ c (Proc.devRef .tc main_v78)) (W11 m ρ c (Proc.devRef .tc main_v79)) = _
  rw [v78_11 m ρ c]
  exact (Cert.ReferenceIdeal.BiasReluRef.ref3 (W11 m ρ c (Proc.devRef .tc main_v79)) (b79_11 m ρ c)).symm
theorem v80_13 : W13 m ρ c (Proc.devRef .tc main_v80) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by host_keeps : W13 m ρ c (Proc.devRef .tc main_v80) = W12 m ρ c (Proc.devRef .tc main_v80)).trans (v80_12 m ρ c)

/-! ## The dueling head and the result -/

theorem b81_13 (k : Fin 32) : W13 m ρ c (Proc.devRef .tc main_v81) (ix2 (0 : Fin 1) k) = (m ((c : Thread nD τ).loc main_arg10)) (ix1 k) :=
  Stretch.s6_v81 (W12 m ρ c) _ (a10_12 m ρ c) k
theorem b82_13 (k : Fin 32) : W13 m ρ c (Proc.devRef .tc main_v82) (ix2 (0 : Fin 1) k) = (m ((c : Thread nD τ).loc main_arg14)) (ix1 k) :=
  Stretch.s6_v82 (W12 m ρ c) _ (a14_12 m ρ c) k
theorem b83_13 (k : Fin 1) : W13 m ρ c (Proc.devRef .tc main_v83) (ix2 (0 : Fin 1) k) = (m ((c : Thread nD τ).loc main_arg12)) (ix1 k) :=
  Stretch.s6_v83 (W12 m ρ c) _ (a12_12 m ρ c) k
theorem b84_13 (k : Fin 1) : W13 m ρ c (Proc.devRef .tc main_v84) (ix2 (0 : Fin 1) k) = (m ((c : Thread nD τ).loc main_arg16)) (ix1 k) :=
  Stretch.s6_v84 (W12 m ρ c) _ (a16_12 m ρ c) k
theorem v850_14 : W14 m ρ c (Proc.devRef .tc main_v85_0) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 9).trans ?_
  rw [Head.value_array (V13 m ρ) c]
  show Head.branch (W13 m ρ c (Proc.devRef .tc main_v80)) (W13 m ρ c (Proc.devRef .tc main_arg9)) (W13 m ρ c (Proc.devRef .tc main_v81)) (W13 m ρ c (Proc.devRef .tc main_arg11)) (W13 m ρ c (Proc.devRef .tc main_v83)) = _
  rw [v80_13 m ρ c, a9_13 m ρ c, a11_13 m ρ c]
  exact (Cert.ReferenceIdeal.HeadRef.ref_value (W13 m ρ c (Proc.devRef .tc main_v81)) (W13 m ρ c (Proc.devRef .tc main_v83)) (b81_13 m ρ c) (b83_13 m ρ c 0)).symm
theorem v851_14 : W14 m ρ c (Proc.devRef .tc main_v85_1) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  refine (W14_arr m ρ c 10).trans ?_
  rw [Head.adv_array (V13 m ρ) c]
  show Head.branch (W13 m ρ c (Proc.devRef .tc main_v80)) (W13 m ρ c (Proc.devRef .tc main_arg13)) (W13 m ρ c (Proc.devRef .tc main_v82)) (W13 m ρ c (Proc.devRef .tc main_arg15)) (W13 m ρ c (Proc.devRef .tc main_v84)) = _
  rw [v80_13 m ρ c, a13_13 m ρ c, a15_13 m ρ c]
  exact (Cert.ReferenceIdeal.HeadRef.ref_adv (W13 m ρ c (Proc.devRef .tc main_v82)) (W13 m ρ c (Proc.devRef .tc main_v84)) (b82_13 m ρ c) (b84_13 m ρ c 0)).symm

/-- THE RESULT BUFFER at the last boundary is the reference's result of the launch contents of the seventeen arguments. -/
theorem result_eq : W15 m ρ c (Proc.devRef .tc main_v92) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  Stretch.s7_v92 (W14 m ρ c) _ _ _ _ _ _ _ _ _ _ _ _ _ _ _ _ _ (v850_14 m ρ c) (v851_14 m ρ c)

end Cert.KernelIdeal.Fold

end
-- ==== Proof.lean ====
/-
  A three-layer graph convolution followed by a dueling head, over 100000 nodes and 1600000 weighted edges plus one self
  loop per node.  Both programs build the same edge coefficients (the symmetric degree normalisation), and per layer
  gather the rows of h·W along the edges, scale them, sum them into their destination nodes, add the bias and clamp at
  zero; the head is  relu(h·W₁ + b₁)·W₂ + b₂  twice (value, advantage) and the result is
  value + (advantage − mean advantage).  The kernel computes the dense pieces in seven pallas_calls over ten blocks of
  10000 rows — three matrix products (operands rounded to a narrower float format first), three bias-and-relu passes and
  one fused head — where the reference uses the host's dot_general, add and maximum; everything between the dense pieces
  is the same host operations in both programs.

  On extended reals a change of float format is the identity and a block product into a zero accumulator is the plain
  sum over the contracted axis, so each pallas_call's output array is, entry by entry, the reference's corresponding
  array: a row of a row block times the weights is that row of the whole product, and the blocks tile the output.  No
  sum is reordered and no factor is moved across a sum, so the equality holds at every extended real, infinities
  included, and the finiteness of the inputs is not used.

  The three frames are the generated frame runs (the reference's is its generated run with the result dropped); the
  idealization rewrote nothing, so its conjunct is trivial; for the equality of results the kernel's run is taken with
  the result buffer named (KernelRun), its contents traced through the segments (Fold, over Stretches, MatmulBlocks,
  BiasReluBlocks, HeadBlocks and the reference-side readings BiasReluRef, HeadRef) to the reference's result term, which
  is what the reference's generated run ends with.
-/
import proofs.«172456_j42700564856884_1_alg».proof.Defs
import proofs.«172456_j42700564856884_1_alg».proof.Proof.Gen.Kernel
import proofs.«172456_j42700564856884_1_alg».proof.Proof.Gen.Kernel.Skeleton
import proofs.«172456_j42700564856884_1_alg».proof.Proof.Gen.Kernel.Launch
import proofs.«172456_j42700564856884_1_alg».proof.Proof.Gen.Kernel.Points
import proofs.«172456_j42700564856884_1_alg».proof.Proof.Gen.Kernel.Frame
import proofs.«172456_j42700564856884_1_alg».proof.Proof.Gen.KernelIdeal
import proofs.«172456_j42700564856884_1_alg».proof.Proof.Gen.KernelIdeal.Skeleton
import proofs.«172456_j42700564856884_1_alg».proof.Proof.Gen.KernelIdeal.Launch
import proofs.«172456_j42700564856884_1_alg».proof.Proof.Gen.KernelIdeal.Points
import proofs.«172456_j42700564856884_1_alg».proof.Proof.Gen.KernelIdeal.Frame
import proofs.«172456_j42700564856884_1_alg».proof.Proof.Gen.ReferenceIdeal
import proofs.«172456_j42700564856884_1_alg».proof.Proof.Gen.Pre_finite_inputs
import proofs.«172456_j42700564856884_1_alg».proof.Proof.Gen.ReferenceIdeal.Run
import proofs.«172456_j42700564856884_1_alg».proof.Proof.Gen.ReferenceIdeal.Read
import proofs.«172456_j42700564856884_1_alg».proof.Proof.KernelRun
import proofs.«172456_j42700564856884_1_alg».proof.Proof.Fold
import Idealize.ShloMosaic.Adequacy
import Idealize.ShloMosaic.Init

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the kernel as printed runs, and its arguments end unchanged
    exact fun m ρ _ => Cert.Kernel.Gen.frame m ρ
  · -- so does its idealization
    exact fun m ρ _ => Cert.KernelIdeal.Gen.frame m ρ
  · -- the reference: its run, with the result dropped
    exact fun m ρ _ => (θ_run Cert.ReferenceIdeal.defs _ _).mono (fun _ h c => (h c).2) (Cert.ReferenceIdeal.Value.run (F := Ideal) m ρ)
  · -- equal results: both end at the reference's result term of the (agreeing) arguments
    intro m ρ m' ρ' _ hagree
    refine ⟨fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
    · exact (θ_run Cert.KernelIdeal.defs _ _).mono
        (fun r h c => ⟨(h c).1.trans (Cert.KernelIdeal.Fold.result_eq m ρ c), (h c).2⟩)
        (Cert.KernelIdeal.Run.run_result (F := Ideal) m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v111_eq]
      obtain ⟨e0, e1, e2, e3, e4, e5, e6, e7, e8, e9, e10, e11, e12, e13, e14, e15, e16⟩ := hagree c
      rw [e0, e1, e2, e3, e4, e5, e6, e7, e8, e9, e10, e11, e12, e13, e14, e15, e16]⟩

end Cert.Proof

end
